-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S10000x64 : Shape := ⟨2, ![10000, 64]⟩
abbrev S1700000x64 : Shape := ⟨2, ![1700000, 64]⟩

abbrev nBuf : Space → Nat
  | .hbm => 86
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S1x64, .f32⟩
  | .hbm, ⟨50, _⟩ => ⟨S1x64, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v62) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S100000x64, .f32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x1, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S_, .f32⟩
  | 83 => ⟨S100000, .f32⟩
  | 84 => ⟨S100000, .f32⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x64, .f32⟩
  | 118 => ⟨S1700000x1, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S1x64, .f32⟩
  | 126 => ⟨S100000x64, .f32⟩
  | 127 => ⟨S100000x64, .f32⟩
  | _ => ⟨S100000x64, .f32⟩

abbrev hbmTy0_1 (i : Nat) : BufTy := match i % 128 with
  | 0 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The function both programs compute, as ONE term of the six argument arrays.

  A two-layer graph convolution with symmetric normalisation.  The edge table `e : i32[2, 1600000]` gives a source row and a
  destination row; both are extended by the 100000 self loops `0, 1, …, 99999` (`srcs`, `dsts`).  A negative endpoint
  `i` is read as `i + 100000` (`wrap`).  The degree of a node is the number of extended edges that end in it, as a
  float sum of ones (`deg`); `dinv = deg^(-1/2)` where the degree is positive and `0` elsewhere; an edge's weight is
  `dinv[src] · dinv[dst]` (`norm`).  One aggregation `agg h` sends a node table `h : f32[100000, 64]` to the table whose
  row `i` is the sum, over the extended edges `j → i`, of `norm · h[j]`.  With `mm` the matrix product, `relu` the maximum
  with zero and `rowb b` the row `b` repeated down the table, the result is

      agg (mm (relu (agg (mm x W1) + rowb b1)) W2) + rowb b2 + x.

  Every operation here is the host's own (gather, scatter-add, dot_general, …) over the literal shapes of the printed
  reference, so the reference's run is this term read off its operations, and the kernel's three tiled regions are
  `mm`, `mm ∘ relu ∘ (· + rowb b1)` and `· + rowb b2 + x` block by block.
-/
import proofs.«142221_j5153960755351_2_alg».proof.Proof.Gen.ReferenceIdeal
import Idealize.ShloMosaic.PureOps.Ideal

noncomputable section

namespace Cert.GcnSpec

open Cert.ReferenceIdeal Cert.ReferenceIdeal.Gen Idealize.ShloMosaic Idealize.ShloMosaic.TcCoe Idealize.SL.Sem

variable {F : FTy → Type} [FloatOps F]

/-- A node table `f32[100000, 64]`. -/
abbrev Tab (F : FTy → Type) [FloatOps F] := (⟨S100000x64, .f32⟩ : BufTy).Contents (Elt F)
/-- A weight matrix `f32[64, 64]`. -/
abbrev Mat (F : FTy → Type) [FloatOps F] := (⟨S64x64, .f32⟩ : BufTy).Contents (Elt F)
/-- A bias `f32[64]`. -/
abbrev Bias (F : FTy → Type) [FloatOps F] := (⟨S64, .f32⟩ : BufTy).Contents (Elt F)
/-- The edge table `i32[2, 1600000]`. -/
abbrev Edges (F : FTy → Type) [FloatOps F] := (⟨S2x1600000, .i32⟩ : BufTy).Contents (Elt F)
/-- One endpoint per extended edge, `i32[1700000]`. -/
abbrev Ends (F : FTy → Type) [FloatOps F] := (⟨S1700000, .i32⟩ : BufTy).Contents (Elt F)
/-- One float per extended edge, `f32[1700000]`. -/
abbrev PerEdge (F : FTy → Type) [FloatOps F] := (⟨S1700000, .f32⟩ : BufTy).Contents (Elt F)
/-- One float per node, `f32[100000]`. -/
abbrev PerNode (F : FTy → Type) [FloatOps F] := (⟨S100000, .f32⟩ : BufTy).Contents (Elt F)

/-- The sources: row 0 of the edge table, then the self loops `0 … 99999`. -/
def srcs (e : Edges F) : Ends F :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destinations: row 1 of the edge table, then the self loops `0 … 99999`. -/
def dsts (e : Edges F) : Ends F :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative endpoint `i` stands for `i + 100000`. -/
def wrap (s : Ends F) : Ends F :=
  select (cmpi .slt s (broadcastInDim S1700000 ![] bcast_S_S1700000 (constantI S_ 32 0#32)))
    (addi s (broadcastInDim S1700000 ![] bcast_S_S1700000 (constantI S_ 32 100000#32))) s

/-- The endpoints as a one-column index table `i32[1700000, 1]`. -/
def icol (s : Ends F) : (⟨S1700000x1, .i32⟩ : BufTy).Contents (Elt F) :=
  broadcastInDim S1700000x1 ![0] bcast_S1700000_S1700000x1_0 s

/-- The number of extended edges ending in each node: a sum of ones scattered by destination. -/
def deg (d : Ends F) : PerNode F :=
  Host.scatterAdd scatter_S100000_S1700000x1_S1700000_n_0_0_1
    (broadcastInDim S100000 ![] bcast_S_S100000 (constant S_ .f32 0x00000000#32)) (icol d)
    (broadcastInDim S1700000 ![] bcast_S_S1700000 (constant S_ .f32 0x3F800000#32))

/-- `deg^(-1/2)` where the degree is positive, `0` elsewhere (the square root is taken of `max(deg, 1)`). -/
def dinv (d : Ends F) : PerNode F :=
  select (cmpf .ogt (deg d) (broadcastInDim S100000 ![] bcast_S_S100000 (constant (F := F) S_ .f32 0x00000000#32)))
    (Host.rsqrt (maximumf (deg d) (broadcastInDim S100000 ![] bcast_S_S100000 (constant S_ .f32 0x3F800000#32))))
    (broadcastInDim S100000 ![] bcast_S_S100000 (constant S_ .f32 0x00000000#32))

/-- An extended edge's weight `dinv[src] · dinv[dst]`. -/
def norm (s d : Ends F) : PerEdge F :=
  mulf (Host.gather gather_S100000_S1700000x1_S1700000_n_0_n_n_0_1_1 (dinv d) (icol (wrap s)))
    (Host.gather gather_S100000_S1700000x1_S1700000_n_0_n_n_0_1_1 (dinv d) (icol (wrap d)))

/-- One aggregation with the weights `w`: row `i` of the result is the sum over the extended edges `j → i` of `w · h[j]`. -/
def aggW (s d : Ends F) (w : PerEdge F) (h : Tab F) : Tab F :=
  Host.scatterAdd scatter_S100000x64_S1700000x1_S1700000x64_1_0_0_1
    (broadcastInDim S100000x64 ![] bcast_S_S100000x64 (constant S_ .f32 0x00000000#32)) (icol d)
    (mulf (Host.gather gather_S100000x64_S1700000x1_S1700000x64_1_0_n_n_0_1_164 h (icol (wrap s)))
      (broadcastInDim S1700000x64 ![0, 1] bcast_S1700000x1_S1700000x64_0_1
        (broadcastInDim S1700000x1 ![0] bcast_S1700000_S1700000x1_0 w)))

/-- One aggregation over the graph of the edge table `e`, with the symmetric weights. -/
def agg (e : Edges F) (h : Tab F) : Tab F := aggW (srcs e) (dsts e) (norm (srcs e) (dsts e)) h

/-- A `[1, 64]` row repeated down the node table. -/
def rows (b : (⟨S1x64, .f32⟩ : BufTy).Contents (Elt F)) : Tab F :=
  broadcastInDim S100000x64 ![0, 1] bcast_S1x64_S100000x64_0_1 b

/-- A bias laid as a `[1, 64]` row. -/
def asRow (b : Bias F) : (⟨S1x64, .f32⟩ : BufTy).Contents (Elt F) := broadcastInDim S1x64 ![1] bcast_S64_S1x64_1 b

/-- A bias repeated down the node table. -/
def rowb (b : Bias F) : Tab F := rows (asRow b)

/-- The maximum with zero. -/
def relu (h : Tab F) : Tab F :=
  maximumf h (broadcastInDim S100000x64 ![] bcast_S_S100000x64 (constant S_ .f32 0x00000000#32))

/-- The matrix product of a node table with a weight matrix. -/
def mm (h : Tab F) (W : Mat F) : Tab F := Host.dotGeneral dot_S100000x64_S64x64_S100000x64_1_0_0_1_n_n none h W

/-- The second layer's dense half on a table and a `[1, 64]` bias row: `relu (a + row) · W`. -/
def layer2 (a : Tab F) (b : (⟨S1x64, .f32⟩ : BufTy).Contents (Elt F)) (W : Mat F) : Tab F := mm (relu (addf a (rows b))) W

/-- The closing step on a table, a `[1, 64]` bias row and the residual: `a + row + x`. -/
def close (a : Tab F) (b : (⟨S1x64, .f32⟩ : BufTy).Contents (Elt F)) (x : Tab F) : Tab F := addf (addf a (rows b)) x

/-- The whole model. -/
def out (x : Tab F) (e : Edges F) (W1 : Mat F) (b1 : Bias F) (W2 : Mat F) (b2 : Bias F) : Tab F :=
  close (agg e (layer2 (agg e (mm x W1)) (asRow b1) W2)) (asRow b2) x

end Cert.GcnSpec

end
-- ==== Proof.Dots.lean ====
/-
  The two matrix products read at an index, as sums over the 64 contracted columns.

  `mm h W` (the host's dot_general of a [100000, 64] table with a [64, 64] matrix) at (r, q) is
  `∑ k < 64, h (r, k) · W (k, q)`; a tile's `tpu.matmul` of a [10000, 64] block with the matrix into a zero
  accumulator at (p, q) is `∑ k < 64, x (p, k) · W (k, q)`.  At the ideal values both are exact sums of exact
  products, so a tile of the product is the product of the tile.
-/
import proofs.«142221_j5153960755351_2_alg».proof.Proof.Spec
import proofs.«142221_j5153960755351_2_alg».proof.Proof.Gen.KernelIdeal
import Idealize.ShloMosaic.Lib.ValueIdx
import Idealize.ShloMosaic.PureOps.Ideal.Laws

noncomputable section

namespace Cert.GcnDots

open Idealize.ShloMosaic Idealize.ShloMosaic.TcCoe Idealize.SL.Sem

/-! ## The host's product over the whole table -/

section Host
open Cert.ReferenceIdeal Cert.ReferenceIdeal.Gen

/-- Entry (row of `i`, `k`) of a node table. -/
abbrev hl (i : S100000x64.Idx) (k : Fin 64) : S100000x64.Idx := fun a => match a with
  | ⟨0, _⟩ => ⟨(i 0).val, (i 0).isLt⟩
  | ⟨1, _⟩ => ⟨k.val, k.isLt⟩
/-- Entry (`k`, column of `i`) of a weight matrix. -/
abbrev hr (i : S100000x64.Idx) (k : Fin 64) : S64x64.Idx := fun a => match a with
  | ⟨0, _⟩ => ⟨k.val, k.isLt⟩
  | ⟨1, _⟩ => ⟨(i 1).val, (i 1).isLt⟩

theorem hl0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem hl1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem hr0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem hr1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The host's product at an index: the row of the table against the column of the matrix. -/
theorem mm_apply (h : Cert.GcnSpec.Tab Ideal) (W : Cert.GcnSpec.Mat Ideal) (i : S100000x64.Idx) :
    Cert.GcnSpec.mm (F := Ideal) h W i = ∑ k : Fin 64, h (hl i k) * W (hr i k) := by
  unfold Cert.GcnSpec.mm
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = hl i k := funext fun a => Fin.ext (by
    match a with
    | ⟨0, _⟩ => exact hl0 _ _
    | ⟨1, _⟩ => exact (hl1 _ _).trans hk)
  have er : dot_S100000x64_S64x64_S100000x64_1_0_0_1_n_n.rhsIdx i ((ValueIdx.contrEquiv1 dot_S100000x64_S64x64_S100000x64_1_0_0_1_n_n 64 rfl rfl).symm k) = hr i k := funext fun a => Fin.ext (by
    match a with
    | ⟨0, _⟩ => exact (hr0 _ _).trans hk
    | ⟨1, _⟩ => exact hr1 _ _)
  rw [el, er]

end Host

/-! ## A tile's product -/

section Tile
open Cert.KernelIdeal Cert.KernelIdeal.Gen

/-- Entry (row of `y`, `k`) of a [10000, 64] block. -/
abbrev tl (y : S10000x64.Idx) (k : Fin 64) : S10000x64.Idx := fun a => match a with
  | ⟨0, _⟩ => ⟨(y 0).val, (y 0).isLt⟩
  | ⟨1, _⟩ => ⟨k.val, k.isLt⟩
/-- Entry (`k`, column of `y`) of the matrix as the tile holds it. -/
abbrev tr (y : S10000x64.Idx) (k : Fin 64) : S64x64.Idx := fun a => match a with
  | ⟨0, _⟩ => ⟨k.val, k.isLt⟩
  | ⟨1, _⟩ => ⟨(y 1).val, (y 1).isLt⟩

theorem tl0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem tl1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem tr0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem tr1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A tile's product into a zero accumulator at an index: the block's row against the matrix's column. -/
theorem tile_mm_apply (x0 : FVec Ideal S10000x64 .f32) (x1 : FVec Ideal S64x64 .f32) (y : S10000x64.Idx) :
    matmul dot_S10000x64_S64x64_S10000x64_1_0_0_1_n_n none x0 x1 (constant (F := Ideal) S10000x64 .f32 0x00000000#32) y
      = ∑ k : Fin 64, x0 (tl y k) * x1 (tr y k) := by
  refine (Ideal.matmul_constant_zero_apply dot_S10000x64_S64x64_S10000x64_1_0_0_1_n_n none x0 x1 y).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx y ((ValueIdx.contrEquiv1 dot_S10000x64_S64x64_S10000x64_1_0_0_1_n_n 64 rfl rfl).symm k) = tl y k := funext fun a => Fin.ext (by
    match a with
    | ⟨0, _⟩ => exact tl0 _ _
    | ⟨1, _⟩ => exact (tl1 _ _).trans hk)
  have er : dot_S10000x64_S64x64_S10000x64_1_0_0_1_n_n.rhsIdx y ((ValueIdx.contrEquiv1 dot_S10000x64_S64x64_S10000x64_1_0_0_1_n_n 64 rfl rfl).symm k) = tr y k := funext fun a => Fin.ext (by
    match a with
    | ⟨0, _⟩ => exact (tr0 _ _).trans hk
    | ⟨1, _⟩ => exact tr1 _ _)
  rw [el, er]

end Tile

end Cert.GcnDots

end
-- ==== Proof.Tile0.lean ====
/-
  The first tiled region: the node table times the first weight matrix, ten blocks of 10000 rows.

  Point `t` of the grid reads rows `10000·t … 10000·t + 9999` of the table and the whole matrix, and writes the
  block's product to the same rows of the output.  Entry (p, q) of that block is `∑ k, x (10000·t + p, k) · W (k, q)`,
  which is entry (10000·t + p, q) of the product of the whole table with the matrix; the ten blocks tile the
  100000 rows, so the output array ends as that whole product, whatever the region found in its arrays.
-/
import proofs.«142221_j5153960755351_2_alg».proof.Proof.Dots
import proofs.«142221_j5153960755351_2_alg».proof.Proof.Gen.KernelIdeal.Frame
import Idealize.ShloMosaic.Lib.Pipeline.Value

noncomputable section

namespace Cert.GcnTile0

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the table's and the output's blocks move together down the rows, the matrix's
    block stays, and no block leaves column block 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every one of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole product. -/
theorem flushed_eq (c : Dev nD) (t : Fin cfg0.N) :
    (dat0 V c).flushed 2 t = ((cfg0.win 2).blk t).view.read (Elt Ideal) (Cert.GcnSpec.mm (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4⟩ := idx_facts t
  funext y
  show k0_pay1 (iblk0 V c 0 t) (iblk0 V c 1 t) y = Cert.GcnSpec.mm (V c main_arg0) (V c main_arg2) (((cfg0.win 2).blk t).view.emb y)
  refine (Cert.GcnDots.tile_mm_apply (iblk0 V c 0 t) (iblk0 V c 1 t) y).trans ?_
  refine Eq.trans ?_ (Cert.GcnDots.mm_apply (V c main_arg0) (V c main_arg2) (((cfg0.win 2).blk t).view.emb y)).symm
  refine Finset.sum_congr rfl fun k _ => ?_
  have h0 : iblk0 V c 0 t (Cert.GcnDots.tl y k) = V c main_arg0 (Cert.GcnDots.hl (((cfg0.win 2).blk t).view.emb y) k) := by
    show V c main_arg0 (((cfg0.win 0).blk t).view.emb (Cert.GcnDots.tl y k)) = _
    refine congrArg (V c main_arg0) (funext fun a => Fin.ext ?_)
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 64 + 1 * k.val = k.val; omega
  have h1 : iblk0 V c 1 t (Cert.GcnDots.tr y k) = V c main_arg2 (Cert.GcnDots.hr (((cfg0.win 2).blk t).view.emb y) k) := by
    show V c main_arg2 (((cfg0.win 1).blk t).view.emb (Cert.GcnDots.tr y k)) = _
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * (y 1).val = win0_2.index t (1 : Fin 2) * 64 + 1 * (y 1).val; omega
  rw [h0, h1]

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v34).slice (win0_2.rect t)).set ↔ _
  rw [View.set_slice_whole, Rect.mem_set_unit]
  exact Iff.rfl

/-- The ten blocks tile the array: row `r` lies in block `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The region's output array ends as the product of the table and the matrix it found in its input arrays. -/
theorem value (c : Dev nD) : (dat0 V c).arrAt 2 cfg0.N = Cert.GcnSpec.mm (V c main_arg0) (V c main_arg2) :=
  (dat0 V c).arrAt_eq_of_cover 2 (Cert.GcnSpec.mm (V c main_arg0) (V c main_arg2)) (fun t _ => flushed_eq V c t) cover

end Cert.GcnTile0

end
-- ==== Proof.Rows.lean ====
/-
  The two pointwise steps read at an index, on a tile and on the whole table.

  A tile adds the bias row to a block and (in the second region) takes the maximum with zero; the host does the
  same to the whole table with the bias repeated down it.  At an index (p, q) both read the block or table at
  (p, q) and the bias row at (0, q).
-/
import proofs.«142221_j5153960755351_2_alg».proof.Proof.Spec
import proofs.«142221_j5153960755351_2_alg».proof.Proof.Gen.KernelIdeal
import Idealize.ShloMosaic.Lib.Pipeline.Value
import Idealize.ShloMosaic.PureOps.Ideal.Laws

noncomputable section

namespace Cert.GcnRows

open Idealize.ShloMosaic Idealize.ShloMosaic.TcCoe Idealize.SL.Sem

/-! ## On the whole table -/

section Host
open Cert.ReferenceIdeal Cert.ReferenceIdeal.Gen

/-- Entry (0, column of `i`) of a [1, 64] row. -/
abbrev hb (i : S100000x64.Idx) : S1x64.Idx := fun a => match a with
  | ⟨0, _⟩ => ⟨0, Nat.one_pos⟩
  | ⟨1, _⟩ => ⟨(i 1).val, (i 1).isLt⟩

/-- A row repeated down the table, at an index: the row's entry in that column. -/
theorem rows_apply (b : (⟨S1x64, .f32⟩ : BufTy).Contents (Elt Ideal)) (i : S100000x64.Idx) :
    Cert.GcnSpec.rows (F := Ideal) b i = b (hb i) := by
  unfold Cert.GcnSpec.rows
  exact broadcastInDim_apply _ bcast_S1x64_S100000x64_0_1 b i (hb i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- The zero table at an index. -/
theorem zeros_apply (i : S100000x64.Idx) :
    (broadcastInDim S100000x64 ![] bcast_S_S100000x64 (constant (F := Ideal) S_ .f32 0x00000000#32)) i = FloatOps.ofBits .f32 0x00000000#32 :=
  broadcastInDim_apply _ bcast_S_S100000x64 _ i (fun a => a.elim0) (fun a => a.elim0)

/-- `relu (a + rows b)` at an index. -/
theorem act_apply (a : Cert.GcnSpec.Tab Ideal) (b : (⟨S1x64, .f32⟩ : BufTy).Contents (Elt Ideal)) (i : S100000x64.Idx) :
    Cert.GcnSpec.relu (F := Ideal) (addf a (Cert.GcnSpec.rows b)) i
      = FloatOps.maximumf (F := Ideal) (FloatOps.addf (F := Ideal) (φ := .f32) (a i) (b (hb i))) (FloatOps.ofBits .f32 0x00000000#32) := by
  unfold Cert.GcnSpec.relu
  show FloatOps.maximumf (F := Ideal) (FloatOps.addf (F := Ideal) (φ := .f32) (a i) (Cert.GcnSpec.rows b i)) ((broadcastInDim S100000x64 ![] bcast_S_S100000x64 (constant (F := Ideal) S_ .f32 0x00000000#32)) i) = _
  rw [rows_apply, zeros_apply]

/-- `a + rows b + x` at an index. -/
theorem close_apply (a : Cert.GcnSpec.Tab Ideal) (b : (⟨S1x64, .f32⟩ : BufTy).Contents (Elt Ideal)) (x : Cert.GcnSpec.Tab Ideal) (i : S100000x64.Idx) :
    Cert.GcnSpec.close (F := Ideal) a b x i = FloatOps.addf (F := Ideal) (φ := .f32) (FloatOps.addf (F := Ideal) (φ := .f32) (a i) (b (hb i))) (x i) := by
  unfold Cert.GcnSpec.close
  show FloatOps.addf (F := Ideal) (φ := .f32) (FloatOps.addf (F := Ideal) (φ := .f32) (a i) (Cert.GcnSpec.rows b i)) (x i) = _
  rw [rows_apply]

end Host

/-! ## On a tile -/

section Tile
open Cert.KernelIdeal Cert.KernelIdeal.Gen

/-- Entry (0, column of `j`) of the bias row as the tile holds it. -/
abbrev tb (j : S10000x64.Idx) : S1x64.Idx := fun a => match a with
  | ⟨0, _⟩ => ⟨0, Nat.one_pos⟩
  | ⟨1, _⟩ => ⟨(j 1).val, (j 1).isLt⟩

/-- The bias row spread over a block, at an index. -/
theorem spread_apply (v2 : FVec Ideal S1x64 .f32) (j : S10000x64.Idx) :
    broadcastTo S10000x64 (shapeCast S1x64 v2 shapeCasts_S1x64_S1x64) broadcasts_S1x64_S10000x64 j = v2 (tb j) := by
  rw [shapeCast_self]
  exact broadcastTo_apply v2 broadcasts_S1x64_S10000x64 j (tb j) (fun a => match a with
    | ⟨0, _⟩ => by show 0 = if (1 : Nat) = 1 then 0 else _; rw [if_pos rfl]
    | ⟨1, _⟩ => by show (j 1).val = if (64 : Nat) = 1 then 0 else (j 1).val; rw [if_neg (by decide)])

/-- The second region's activation on a block, at an index. -/
theorem tile_act_apply (v0 : FVec Ideal S10000x64 .f32) (v2 : FVec Ideal S1x64 .f32) (j : S10000x64.Idx) :
    maximumf (addf (shapeCast S10000x64 v0 shapeCasts_S10000x64_S10000x64) (broadcastTo S10000x64 (shapeCast S1x64 v2 shapeCasts_S1x64_S1x64) broadcasts_S1x64_S10000x64))
        (broadcast S10000x64 (Scalar.ofBits (F := Ideal) .f32 0x00000000#32)) j
      = FloatOps.maximumf (FloatOps.addf (v0 j) (v2 (tb j))) (FloatOps.ofBits .f32 0x00000000#32) := by
  show FloatOps.maximumf (FloatOps.addf (shapeCast S10000x64 v0 shapeCasts_S10000x64_S10000x64 j) (broadcastTo S10000x64 (shapeCast S1x64 v2 shapeCasts_S1x64_S1x64) broadcasts_S1x64_S10000x64 j)) (FloatOps.ofBits .f32 0x00000000#32) = _
  rw [shapeCast_self, spread_apply]

/-- The third region's sum on a block, at an index. -/
theorem tile_close_apply (v0 : FVec Ideal S10000x64 .f32) (v2 : FVec Ideal S1x64 .f32) (v6 : FVec Ideal S10000x64 .f32) (j : S10000x64.Idx) :
    addf (addf (shapeCast S10000x64 v0 shapeCasts_S10000x64_S10000x64) (broadcastTo S10000x64 (shapeCast S1x64 v2 shapeCasts_S1x64_S1x64) broadcasts_S1x64_S10000x64)) v6 j
      = FloatOps.addf (FloatOps.addf (v0 j) (v2 (tb j))) (v6 j) := by
  show FloatOps.addf (FloatOps.addf (shapeCast S10000x64 v0 shapeCasts_S10000x64_S10000x64 j) (broadcastTo S10000x64 (shapeCast S1x64 v2 shapeCasts_S1x64_S1x64) broadcasts_S1x64_S10000x64 j)) (v6 j) = _
  rw [shapeCast_self, spread_apply]

end Tile

end Cert.GcnRows

end
-- ==== Proof.Tile1.lean ====
/-
  The second tiled region: bias, maximum with zero, and the second weight matrix, ten blocks of 10000 rows.

  Point `t` reads rows `10000·t … 10000·t + 9999` of the aggregated table, the bias row and the whole matrix, and
  writes `max (a + b, 0) · W` of its block.  Entry (p, q) of the block is
  `∑ k, max (a (10000·t + p, k) + b (0, k), 0) · W (k, q)`: entry (10000·t + p, q) of the same expression over the
  whole table.  The blocks tile the rows, so the output array ends as that expression of the input arrays.
-/
import proofs.«142221_j5153960755351_2_alg».proof.Proof.Dots
import proofs.«142221_j5153960755351_2_alg».proof.Proof.Rows
import proofs.«142221_j5153960755351_2_alg».proof.Proof.Gen.KernelIdeal.Frame
import Idealize.ShloMosaic.Lib.Pipeline.Value

noncomputable section

namespace Cert.GcnTile1

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the table's and the output's blocks move together down the rows; the bias row's
    and the matrix's blocks stay; no block leaves column block 0. -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0 ∧ win1_3.index t (1 : Fin 2) = 0 :=
  (by decide +kernel : ∀ t : Fin grid1.N, _)

/-- Every one of the ten row blocks is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- What point `t` writes back is block `t` of `max (a + b, 0) · W` over the whole table. -/
theorem flushed_eq (c : Dev nD) (t : Fin cfg1.N) :
    (dat1 V c).flushed 3 t = ((cfg1.win 3).blk t).view.read (Elt Ideal) (Cert.GcnSpec.layer2 (V c main_v47) (V c main_v32) (V c main_arg4)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  obtain ⟨e0, e1, e2, e3, e4, e5, e6⟩ := idx_facts t
  funext y
  show k1_pay1 (iblk1 V c 0 t) (iblk1 V c 1 t) (iblk1 V c 2 t) y = Cert.GcnSpec.layer2 (V c main_v47) (V c main_v32) (V c main_arg4) (((cfg1.win 3).blk t).view.emb y)
  refine (Cert.GcnDots.tile_mm_apply _ (iblk1 V c 2 t) y).trans ?_
  unfold Cert.GcnSpec.layer2
  refine Eq.trans ?_ (Cert.GcnDots.mm_apply (Cert.GcnSpec.relu (addf (V c main_v47) (Cert.GcnSpec.rows (V c main_v32)))) (V c main_arg4) (((cfg1.win 3).blk t).view.emb y)).symm
  refine Finset.sum_congr rfl fun k _ => ?_
  have h0 : iblk1 V c 0 t (Cert.GcnDots.tl y k) = V c main_v47 (Cert.GcnDots.hl (((cfg1.win 3).blk t).view.emb y) k) := by
    show V c main_v47 (((cfg1.win 0).blk t).view.emb (Cert.GcnDots.tl y k)) = _
    refine congrArg (V c main_v47) (funext fun a => Fin.ext ?_)
    match a with
    | ⟨0, _⟩ => show win1_0.index t (0 : Fin 2) * 10000 + 1 * (y 0).val = win1_3.index t (0 : Fin 2) * 10000 + 1 * (y 0).val; omega
    | ⟨1, _⟩ => show win1_0.index t (1 : Fin 2) * 64 + 1 * k.val = k.val; omega
  have h1 : iblk1 V c 1 t (Cert.GcnRows.tb (Cert.GcnDots.tl y k)) = V c main_v32 (Cert.GcnRows.hb (Cert.GcnDots.hl (((cfg1.win 3).blk t).view.emb y) k)) := by
    show V c main_v32 (((cfg1.win 1).blk t).view.emb (Cert.GcnRows.tb (Cert.GcnDots.tl y k))) = _
    refine congrArg (V c main_v32) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  have h2 : iblk1 V c 2 t (Cert.GcnDots.tr y k) = V c main_arg4 (Cert.GcnDots.hr (((cfg1.win 3).blk t).view.emb y) k) := by
    show V c main_arg4 (((cfg1.win 2).blk t).view.emb (Cert.GcnDots.tr y k)) = _
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 64 + 1 * (y 1).val = win1_3.index t (1 : Fin 2) * 64 + 1 * (y 1).val; omega
  rw [h2]
  refine congrArg (· * V c main_arg4 (Cert.GcnDots.hr (((cfg1.win 3).blk t).view.emb y) k)) ?_
  refine (Cert.GcnRows.tile_act_apply (iblk1 V c 0 t) (iblk1 V c 1 t) (Cert.GcnDots.tl y k)).trans ?_
  rw [h0, h1]
  exact (Cert.GcnRows.act_apply (V c main_v47) (V c main_v32) (Cert.GcnDots.hl (((cfg1.win 3).blk t).view.emb y) k)).symm

/-- An index of the output array is in point `t`'s block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v48).slice (win1_3.rect t)).set ↔ _
  rw [View.set_slice_whole, Rect.mem_set_unit]
  exact Iff.rfl

/-- The ten blocks tile the array: row `r` lies in block `r / 10000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The region's output array ends as `max (a + b, 0) · W` of the table, bias row and matrix it found in its input arrays. -/
theorem value (c : Dev nD) : (dat1 V c).arrAt 3 cfg1.N = Cert.GcnSpec.layer2 (V c main_v47) (V c main_v32) (V c main_arg4) :=
  (dat1 V c).arrAt_eq_of_cover 3 (Cert.GcnSpec.layer2 (V c main_v47) (V c main_v32) (V c main_arg4)) (fun t _ => flushed_eq V c t) cover

end Cert.GcnTile1

end
-- ==== Proof.Tile2.lean ====
/-
  The third tiled region: bias and residual, ten blocks of 10000 rows.

  Point `t` reads rows `10000·t … 10000·t + 9999` of the aggregated table and of the residual table and the bias
  row, and writes `a + b + x` of its block: entry (p, q) is `a (10000·t + p, q) + b (0, q) + x (10000·t + p, q)`,
  entry (10000·t + p, q) of the same sum over the whole tables.  The blocks tile the rows.
-/
import proofs.«142221_j5153960755351_2_alg».proof.Proof.Dots
import proofs.«142221_j5153960755351_2_alg».proof.Proof.Rows
import proofs.«142221_j5153960755351_2_alg».proof.Proof.Gen.KernelIdeal.Frame
import Idealize.ShloMosaic.Lib.Pipeline.Value

noncomputable section

namespace Cert.GcnTile2

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the two tables' and the output's blocks move together down the rows; the bias
    row's block stays; no block leaves column block 0. -/
theorem idx_facts : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = win2_3.index t (0 : Fin 2) ∧ win2_2.index t (1 : Fin 2) = 0 ∧ win2_3.index t (1 : Fin 2) = 0 :=
  (by decide +kernel : ∀ t : Fin grid2.N, _)

/-- Every one of the ten row blocks is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- What point `t` writes back is block `t` of `a + b + x` over the whole tables. -/
theorem flushed_eq (c : Dev nD) (t : Fin cfg2.N) :
    (dat2 V c).flushed 3 t = ((cfg2.win 3).blk t).view.read (Elt Ideal) (Cert.GcnSpec.close (V c main_v61) (V c main_v33) (V c main_arg0)) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz]
  obtain ⟨e0, e1, e2, e3, e4, e5, e6⟩ := idx_facts t
  funext y
  show k2_pay1 (iblk2 V c 0 t) (iblk2 V c 1 t) (iblk2 V c 2 t) y = Cert.GcnSpec.close (V c main_v61) (V c main_v33) (V c main_arg0) (((cfg2.win 3).blk t).view.emb y)
  refine (Cert.GcnRows.tile_close_apply (iblk2 V c 0 t) (iblk2 V c 1 t) (iblk2 V c 2 t) y).trans ?_
  have h0 : iblk2 V c 0 t y = V c main_v61 (((cfg2.win 3).blk t).view.emb y) := by
    show V c main_v61 (((cfg2.win 0).blk t).view.emb y) = _
    refine congrArg (V c main_v61) (funext fun a => Fin.ext ?_)
    match a with
    | ⟨0, _⟩ => show win2_0.index t (0 : Fin 2) * 10000 + 1 * (y 0).val = win2_3.index t (0 : Fin 2) * 10000 + 1 * (y 0).val; omega
    | ⟨1, _⟩ => show win2_0.index t (1 : Fin 2) * 64 + 1 * (y 1).val = win2_3.index t (1 : Fin 2) * 64 + 1 * (y 1).val; omega
  have h1 : iblk2 V c 1 t (Cert.GcnRows.tb y) = V c main_v33 (Cert.GcnRows.hb (((cfg2.win 3).blk t).view.emb y)) := by
    show V c main_v33 (((cfg2.win 1).blk t).view.emb (Cert.GcnRows.tb y)) = _
    refine congrArg (V c main_v33) (funext fun a => Fin.ext ?_)
    match a with
    | ⟨0, _⟩ => show win2_1.index t (0 : Fin 2) * 1 + 1 * 0 = 0; omega
    | ⟨1, _⟩ => show win2_1.index t (1 : Fin 2) * 64 + 1 * (y 1).val = win2_3.index t (1 : Fin 2) * 64 + 1 * (y 1).val; omega
  have h2 : iblk2 V c 2 t y = V c main_arg0 (((cfg2.win 3).blk t).view.emb y) := by
    show V c main_arg0 (((cfg2.win 2).blk t).view.emb y) = _
    refine congrArg (V c main_arg0) (funext fun a => Fin.ext ?_)
    match a with
    | ⟨0, _⟩ => show win2_2.index t (0 : Fin 2) * 10000 + 1 * (y 0).val = win2_3.index t (0 : Fin 2) * 10000 + 1 * (y 0).val; omega
    | ⟨1, _⟩ => show win2_2.index t (1 : Fin 2) * 64 + 1 * (y 1).val = win2_3.index t (1 : Fin 2) * 64 + 1 * (y 1).val; omega
  rw [h0, h1, h2]
  exact (Cert.GcnRows.close_apply (V c main_v61) (V c main_v33) (V c main_arg0) (((cfg2.win 3).blk t).view.emb y)).symm

/-- An index of the output array is in point `t`'s block iff each coordinate is in the block's range on its axis. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v62).slice (win2_3.rect t)).set ↔ _
  rw [View.set_slice_whole, Rect.mem_set_unit]
  exact Iff.rfl

/-- The ten blocks tile the array: row `r` lies in block `r / 10000`. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The region's output array ends as `a + b + x` of the table, bias row and residual it found in its input arrays. -/
theorem value (c : Dev nD) : (dat2 V c).arrAt 3 cfg2.N = Cert.GcnSpec.close (V c main_v61) (V c main_v33) (V c main_arg0) :=
  (dat2 V c).arrAt_eq_of_cover 3 (Cert.GcnSpec.close (V c main_v61) (V c main_v33) (V c main_arg0)) (fun t _ => flushed_eq V c t) cover

end Cert.GcnTile2

end
-- ==== Proof.KHost.lean ====
/-
  The host side of the tiled program: what its result buffer holds at the end of the run, given the value each of the
  three tiled regions leaves from any entry contents.

  Between the regions the program runs straight stretches of host operations. Each stretch is read from an arbitrary
  valuation `W` of the buffers: a buffer the stretch writes holds the stretch's expression over `W` at the buffers it
  reads, and a buffer it does not write keeps `W`'s contents. The first stretch is cut into five pieces so that each of its
  two concatenations (the sources and the destinations of the extended edge list) is the first operation of a piece and
  reads its two operands directly from the piece's entry valuation; the pieces are glued by
  `after (l₁ ++ l₂) V = after l₂ (after l₁ V)`.

  Read in order, the stretches before the first region compute the extended edge list's sources and destinations, the
  degrees' inverse square roots, the edge weights, and the two biases laid as rows (a reshape of a `[64]` array to
  `[1, 64]`, equal to the broadcast along the row: both read the bias at the column index). The first region leaves
  `x · W1`; the next stretch is one aggregation over the graph; the second region leaves `relu (· + b1) · W2` of it; the
  next stretch is the second aggregation; the third region adds the second bias and the residual `x`. Composed, the
  result buffer holds the two-layer graph convolution of the six launch arrays.
-/
import proofs.«142221_j5153960755351_2_alg».proof.Proof.Gen.KernelIdeal.Frame
import proofs.«142221_j5153960755351_2_alg».proof.Proof.Spec
import Idealize.ShloMosaic.Lib.StableHlo.Run
import Idealize.ShloMosaic.Lib.Pipeline.Value
import Idealize.ShloMosaic.Lib.ValueLayout

noncomputable section

namespace Cert.GcnKernel

open Cert.KernelIdeal Cert.KernelIdeal.Gen Idealize.ShloMosaic Idealize.ShloMosaic.TcCoe Idealize.SL.Sem Idealize.ShloMosaic.StableHlo
open Idealize.ShloMosaic.Pipeline (Dat Cfg Window)

variable {F : FTy → Type} [FloatOps F]

/-- Running two stretches in a row is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-! ## The first stretch of host operations, cut so that each concatenation opens its own piece -/

/-- The self loops, row 0 of the edge table and its flattening. -/
abbrev opsA : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000 ]
/-- The sources' concatenation. -/
abbrev opsB : List (HloOp τ sig (Elt F)) :=
  [ StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]
/-- Row 1 of the edge table and its flattening. -/
abbrev opsC : List (HloOp τ sig (Elt F)) :=
  [ StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000 ]
/-- The destinations' concatenation. -/
abbrev opsD : List (HloOp τ sig (Elt F)) :=
  [ StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]
/-- The degrees and the pieces of their inverse square root. -/
abbrev opsE : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32) ]

theorem hostOps0_split : (hostOps0 (F := F)) = opsA ++ (opsB ++ (opsC ++ (opsD ++ opsE))) := rfl

/-- The references the stretch writes. -/
abbrev opsA_W : List (Ref sig .tc) := [main_v0, main_v1, main_v2]
theorem opsA_writes : (opsA : List (HloOp τ sig (Elt F))).Forall fun op => op.writes ⊆ (opsA_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference the stretch does not write keeps its contents. -/
theorem opsA_keep (W : Valuation τ sig (Elt F)) (r : Ref sig .tc) (h : r ∉ opsA_W) :
    StableHlo.after (opsA (F := F)) W (Proc.devRef .tc r) = W (Proc.devRef .tc r) :=
  StableHlo.after_of_writes_sub opsA _ opsA_writes h

/-- The references the stretch writes. -/
abbrev opsB_W : List (Ref sig .tc) := [main_v3]
theorem opsB_writes : (opsB : List (HloOp τ sig (Elt F))).Forall fun op => op.writes ⊆ (opsB_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference the stretch does not write keeps its contents. -/
theorem opsB_keep (W : Valuation τ sig (Elt F)) (r : Ref sig .tc) (h : r ∉ opsB_W) :
    StableHlo.after (opsB (F := F)) W (Proc.devRef .tc r) = W (Proc.devRef .tc r) :=
  StableHlo.after_of_writes_sub opsB _ opsB_writes h

/-- The references the stretch writes. -/
abbrev opsC_W : List (Ref sig .tc) := [main_v4, main_v5]
theorem opsC_writes : (opsC : List (HloOp τ sig (Elt F))).Forall fun op => op.writes ⊆ (opsC_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference the stretch does not write keeps its contents. -/
theorem opsC_keep (W : Valuation τ sig (Elt F)) (r : Ref sig .tc) (h : r ∉ opsC_W) :
    StableHlo.after (opsC (F := F)) W (Proc.devRef .tc r) = W (Proc.devRef .tc r) :=
  StableHlo.after_of_writes_sub opsC _ opsC_writes h

/-- The references the stretch writes. -/
abbrev opsD_W : List (Ref sig .tc) := [main_v6]
theorem opsD_writes : (opsD : List (HloOp τ sig (Elt F))).Forall fun op => op.writes ⊆ (opsD_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference the stretch does not write keeps its contents. -/
theorem opsD_keep (W : Valuation τ sig (Elt F)) (r : Ref sig .tc) (h : r ∉ opsD_W) :
    StableHlo.after (opsD (F := F)) W (Proc.devRef .tc r) = W (Proc.devRef .tc r) :=
  StableHlo.after_of_writes_sub opsD _ opsD_writes h

/-- The references the stretch writes. -/
abbrev opsE_W : List (Ref sig .tc) := [main_cst, main_v7, main_cst_0, main_v8, main_v9, main_v10, main_cst_1, main_v11, main_v12, main_cst_2, main_v13, main_v14, main_v15, main_cst_3]
theorem opsE_writes : (opsE : List (HloOp τ sig (Elt F))).Forall fun op => op.writes ⊆ (opsE_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference the stretch does not write keeps its contents. -/
theorem opsE_keep (W : Valuation τ sig (Elt F)) (r : Ref sig .tc) (h : r ∉ opsE_W) :
    StableHlo.after (opsE (F := F)) W (Proc.devRef .tc r) = W (Proc.devRef .tc r) :=
  StableHlo.after_of_writes_sub opsE _ opsE_writes h

/-- The references the stretch writes. -/
abbrev hostOps0_1_W : List (Ref sig .tc) := [main_call0_v0, main_call0_v1, main_v16]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference the stretch does not write keeps its contents. -/
theorem hostOps0_1_keep (W : Valuation τ sig (Elt F)) (r : Ref sig .tc) (h : r ∉ hostOps0_1_W) :
    StableHlo.after (hostOps0_1 (F := F)) W (Proc.devRef .tc r) = W (Proc.devRef .tc r) :=
  StableHlo.after_of_writes_sub hostOps0_1 _ hostOps0_1_writes h

/-- The references the stretch writes. -/
abbrev hostOps0_2_W : List (Ref sig .tc) := [main_c, main_v17, main_v18, main_c_4, main_v19, main_v20, main_v21, main_v22, main_v23, main_c_5, main_v24, main_v25, main_c_6, main_v26, main_v27, main_v28, main_v29, main_v30, main_v31, main_v32, main_v33]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference the stretch does not write keeps its contents. -/
theorem hostOps0_2_keep (W : Valuation τ sig (Elt F)) (r : Ref sig .tc) (h : r ∉ hostOps0_2_W) :
    StableHlo.after (hostOps0_2 (F := F)) W (Proc.devRef .tc r) = W (Proc.devRef .tc r) :=
  StableHlo.after_of_writes_sub hostOps0_2 _ hostOps0_2_writes h

/-- The references the stretch writes. -/
abbrev hostOps1_W : List (Ref sig .tc) := [main_c_7, main_v35, main_v36, main_c_8, main_v37, main_v38, main_v39, main_v40, main_v41, main_v42, main_v43, main_v44, main_cst_9, main_v45, main_v46, main_v47]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference the stretch does not write keeps its contents. -/
theorem hostOps1_keep (W : Valuation τ sig (Elt F)) (r : Ref sig .tc) (h : r ∉ hostOps1_W) :
    StableHlo.after (hostOps1 (F := F)) W (Proc.devRef .tc r) = W (Proc.devRef .tc r) :=
  StableHlo.after_of_writes_sub hostOps1 _ hostOps1_writes h

/-- The references the stretch writes. -/
abbrev hostOps2_W : List (Ref sig .tc) := [main_c_10, main_v49, main_v50, main_c_11, main_v51, main_v52, main_v53, main_v54, main_v55, main_v56, main_v57, main_v58, main_cst_12, main_v59, main_v60, main_v61]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference the stretch does not write keeps its contents. -/
theorem hostOps2_keep (W : Valuation τ sig (Elt F)) (r : Ref sig .tc) (h : r ∉ hostOps2_W) :
    StableHlo.after (hostOps2 (F := F)) W (Proc.devRef .tc r) = W (Proc.devRef .tc r) :=
  StableHlo.after_of_writes_sub hostOps2 _ hostOps2_writes h

/-! ## What each piece computes, from any contents `W` -/

theorem opsA_v2 (W : Valuation τ sig (Elt F)) :
    StableHlo.after (opsA (F := F)) W (Proc.devRef .tc main_v2)
      = shapeCast _ (extractStridedSlice S1x1600000 ![0, 0] (W (Proc.devRef .tc main_arg1)) slices_S2x1600000_S1x1600000_0_0) shapeCasts_S1x1600000_S1600000 := by
  after_results_simp
  rfl
theorem opsA_v0 (W : Valuation τ sig (Elt F)) :
    StableHlo.after (opsA (F := F)) W (Proc.devRef .tc main_v0) = iotaInDim S100000 32 0 := by
  after_results_simp
theorem opsB_v3 (W : Valuation τ sig (Elt F)) :
    StableHlo.after (opsB (F := F)) W (Proc.devRef .tc main_v3)
      = concatenate S1700000 0 [⟨S1600000, W (Proc.devRef .tc main_v2)⟩, ⟨S100000, W (Proc.devRef .tc main_v0)⟩] concatenates_S1600000_S100000_S1700000_d0 := by
  after_results_simp
theorem opsC_v5 (W : Valuation τ sig (Elt F)) :
    StableHlo.after (opsC (F := F)) W (Proc.devRef .tc main_v5)
      = shapeCast _ (extractStridedSlice S1x1600000 ![1, 0] (W (Proc.devRef .tc main_arg1)) slices_S2x1600000_S1x1600000_1_0) shapeCasts_S1x1600000_S1600000 := by
  after_results_simp
  rfl
theorem opsD_v6 (W : Valuation τ sig (Elt F)) :
    StableHlo.after (opsD (F := F)) W (Proc.devRef .tc main_v6)
      = concatenate S1700000 0 [⟨S1600000, W (Proc.devRef .tc main_v5)⟩, ⟨S100000, W (Proc.devRef .tc main_v0)⟩] concatenates_S1600000_S100000_S1700000_d0 := by
  after_results_simp
theorem opsE_v12 (W : Valuation τ sig (Elt F)) :
    StableHlo.after (opsE (F := F)) W (Proc.devRef .tc main_v12)
      = cmpf .ogt (Cert.GcnSpec.deg (W (Proc.devRef .tc main_v6))) (broadcastInDim S100000 ![] bcast_S_S100000 (constant (F := F) S_ .f32 0x00000000#32)) := by
  after_results_simp
  rfl
theorem opsE_v15 (W : Valuation τ sig (Elt F)) :
    StableHlo.after (opsE (F := F)) W (Proc.devRef .tc main_v15)
      = Host.rsqrt (maximumf (Cert.GcnSpec.deg (W (Proc.devRef .tc main_v6))) (broadcastInDim S100000 ![] bcast_S_S100000 (constant S_ .f32 0x3F800000#32))) := by
  after_results_simp
  rfl
theorem opsE_cst3 (W : Valuation τ sig (Elt F)) :
    StableHlo.after (opsE (F := F)) W (Proc.devRef .tc main_cst_3) = constant S_ .f32 0x00000000#32 := by
  after_results_simp
theorem ops01_v16 (W : Valuation τ sig (Elt F)) :
    StableHlo.after (hostOps0_1 (F := F)) W (Proc.devRef .tc main_v16)
      = select (W (Proc.devRef .tc main_v12)) (W (Proc.devRef .tc main_v15)) (broadcastInDim S100000 ![] bcast_S_S100000 (W (Proc.devRef .tc main_cst_3))) := by
  after_results_simp
  rfl
theorem ops02_v31 (W : Valuation τ sig (Elt F)) :
    StableHlo.after (hostOps0_2 (F := F)) W (Proc.devRef .tc main_v31)
      = mulf (Host.gather gather_S100000_S1700000x1_S1700000_n_0_n_n_0_1_1 (W (Proc.devRef .tc main_v16)) (Cert.GcnSpec.icol (Cert.GcnSpec.wrap (W (Proc.devRef .tc main_v3)))))
          (Host.gather gather_S100000_S1700000x1_S1700000_n_0_n_n_0_1_1 (W (Proc.devRef .tc main_v16)) (Cert.GcnSpec.icol (Cert.GcnSpec.wrap (W (Proc.devRef .tc main_v6))))) := by
  after_results_simp
  rfl
theorem ops02_v32 (W : Valuation τ sig (Elt F)) :
    StableHlo.after (hostOps0_2 (F := F)) W (Proc.devRef .tc main_v32)
      = shapeCast S1x64 (W (Proc.devRef .tc main_arg3)) shapeCasts_S64_S1x64 := by
  after_results_simp
  rfl
theorem ops02_v33 (W : Valuation τ sig (Elt F)) :
    StableHlo.after (hostOps0_2 (F := F)) W (Proc.devRef .tc main_v33)
      = shapeCast S1x64 (W (Proc.devRef .tc main_arg5)) shapeCasts_S64_S1x64 := by
  after_results_simp
  rfl
theorem ops1_v47 (W : Valuation τ sig (Elt F)) :
    StableHlo.after (hostOps1 (F := F)) W (Proc.devRef .tc main_v47)
      = Cert.GcnSpec.aggW (W (Proc.devRef .tc main_v3)) (W (Proc.devRef .tc main_v6)) (W (Proc.devRef .tc main_v31)) (W (Proc.devRef .tc main_v34)) := by
  after_results_simp
  rfl
theorem ops2_v61 (W : Valuation τ sig (Elt F)) :
    StableHlo.after (hostOps2 (F := F)) W (Proc.devRef .tc main_v61)
      = Cert.GcnSpec.aggW (W (Proc.devRef .tc main_v3)) (W (Proc.devRef .tc main_v6)) (W (Proc.devRef .tc main_v31)) (W (Proc.devRef .tc main_v48)) := by
  after_results_simp
  rfl

/-- A bias reshaped to one row is the bias broadcast along the row: at `(u, i)` both read the bias at the column `i`. -/
theorem asRow_eq {F : FTy → Type} [FloatOps F] (b : (⟨S64, .f32⟩ : BufTy).Contents (Elt F)) :
    shapeCast S1x64 b shapeCasts_S64_S1x64 = Cert.GcnSpec.asRow b := by
  funext j
  obtain ⟨u, i, rfl⟩ : ∃ (u : Fin 1) (i : Fin 64), j = ValueIdx.ix2 u i :=
    ⟨j 0, j 1, ValueIdx.eq_ix2 (n0 := 1) (n1 := 64) j⟩
  unfold Cert.GcnSpec.asRow
  refine (ValueIdx.shapeCast_a_1a_apply (a := 64) b shapeCasts_S64_S1x64 u i).trans ?_
  exact (broadcastInDim_apply (s := Cert.ReferenceIdeal.S64) (t := Cert.ReferenceIdeal.S1x64) ![1] Cert.ReferenceIdeal.Gen.bcast_S64_S1x64_1 b (ValueIdx.ix2 u i) (ValueIdx.ix1 i) (fun a => by
    match a with
    | ⟨0, _⟩ => rfl)).symm

/-- The references the stretch writes. -/
abbrev hostOps0_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
/-- A reference the stretch does not write keeps its contents. -/
theorem hostOps0_keep (W : Valuation τ sig (Elt F)) (r : Ref sig .tc) (h : r ∉ hostOps0_W) :
    StableHlo.after (hostOps0 (F := F)) W (Proc.devRef .tc r) = W (Proc.devRef .tc r) :=
  StableHlo.after_of_writes_sub hostOps0 _ hostOps0_writes h

/-! ## The sources and destinations are concatenations of the pieces' results -/

theorem srcs_of (e : (⟨S2x1600000, .i32⟩ : BufTy).Contents (Elt F)) (a : (⟨S1600000, .i32⟩ : BufTy).Contents (Elt F))
    (b : (⟨S100000, .i32⟩ : BufTy).Contents (Elt F))
    (ha : a = shapeCast _ (extractStridedSlice S1x1600000 ![0, 0] e slices_S2x1600000_S1x1600000_0_0) shapeCasts_S1x1600000_S1600000)
    (hb : b = iotaInDim S100000 32 0) :
    concatenate S1700000 0 [⟨S1600000, a⟩, ⟨S100000, b⟩] concatenates_S1600000_S100000_S1700000_d0 = Cert.GcnSpec.srcs e := by
  subst ha hb; rfl
theorem dsts_of (e : (⟨S2x1600000, .i32⟩ : BufTy).Contents (Elt F)) (a : (⟨S1600000, .i32⟩ : BufTy).Contents (Elt F))
    (b : (⟨S100000, .i32⟩ : BufTy).Contents (Elt F))
    (ha : a = shapeCast _ (extractStridedSlice S1x1600000 ![1, 0] e slices_S2x1600000_S1x1600000_1_0) shapeCasts_S1x1600000_S1600000)
    (hb : b = iotaInDim S100000 32 0) :
    concatenate S1700000 0 [⟨S1600000, a⟩, ⟨S100000, b⟩] concatenates_S1600000_S100000_S1700000_d0 = Cert.GcnSpec.dsts e := by
  subst ha hb; rfl

/-! ## The first stretch as a whole, from any contents `W` -/

theorem opsAB_v3 (W : Valuation τ sig (Elt F)) :
    StableHlo.after opsB (StableHlo.after (opsA (F := F)) W) (Proc.devRef .tc main_v3) = Cert.GcnSpec.srcs (W (Proc.devRef .tc main_arg1)) := by
  rw [opsB_v3]
  exact srcs_of _ _ _ (opsA_v2 W) (opsA_v0 W)
theorem opsAD_v6 (W : Valuation τ sig (Elt F)) :
    StableHlo.after opsD (StableHlo.after opsC (StableHlo.after opsB (StableHlo.after (opsA (F := F)) W))) (Proc.devRef .tc main_v6)
      = Cert.GcnSpec.dsts (W (Proc.devRef .tc main_arg1)) := by
  rw [opsD_v6]
  refine dsts_of _ _ _ ?_ ?_
  · rw [opsC_v5, opsB_keep _ main_arg1 (by decide), opsA_keep _ main_arg1 (by decide)]
  · rw [opsC_keep _ main_v0 (by decide), opsB_keep _ main_v0 (by decide), opsA_v0]
theorem ops0_v3 (W : Valuation τ sig (Elt F)) :
    StableHlo.after (hostOps0 (F := F)) W (Proc.devRef .tc main_v3) = Cert.GcnSpec.srcs (W (Proc.devRef .tc main_arg1)) := by
  rw [hostOps0_split, after_append, after_append, after_append, after_append,
    opsE_keep _ main_v3 (by decide), opsD_keep _ main_v3 (by decide), opsC_keep _ main_v3 (by decide)]
  exact opsAB_v3 W
theorem ops0_v6 (W : Valuation τ sig (Elt F)) :
    StableHlo.after (hostOps0 (F := F)) W (Proc.devRef .tc main_v6) = Cert.GcnSpec.dsts (W (Proc.devRef .tc main_arg1)) := by
  rw [hostOps0_split, after_append, after_append, after_append, after_append, opsE_keep _ main_v6 (by decide)]
  exact opsAD_v6 W
theorem ops0_v12 (W : Valuation τ sig (Elt F)) :
    StableHlo.after (hostOps0 (F := F)) W (Proc.devRef .tc main_v12)
      = cmpf .ogt (Cert.GcnSpec.deg (Cert.GcnSpec.dsts (W (Proc.devRef .tc main_arg1)))) (broadcastInDim S100000 ![] bcast_S_S100000 (constant (F := F) S_ .f32 0x00000000#32)) := by
  rw [hostOps0_split, after_append, after_append, after_append, after_append, opsE_v12, opsAD_v6]
theorem ops0_v15 (W : Valuation τ sig (Elt F)) :
    StableHlo.after (hostOps0 (F := F)) W (Proc.devRef .tc main_v15)
      = Host.rsqrt (maximumf (Cert.GcnSpec.deg (Cert.GcnSpec.dsts (W (Proc.devRef .tc main_arg1)))) (broadcastInDim S100000 ![] bcast_S_S100000 (constant S_ .f32 0x3F800000#32))) := by
  rw [hostOps0_split, after_append, after_append, after_append, after_append, opsE_v15, opsAD_v6]
theorem ops0_cst3 (W : Valuation τ sig (Elt F)) :
    StableHlo.after (hostOps0 (F := F)) W (Proc.devRef .tc main_cst_3) = constant S_ .f32 0x00000000#32 := by
  rw [hostOps0_split, after_append, after_append, after_append, after_append, opsE_cst3]

/-! ## The three stretches before the first region, from any contents `W` -/

/-- The inverse square roots of the degrees. -/
theorem pre_v16 (W : Valuation τ sig (Elt F)) :
    StableHlo.after hostOps0_1 (StableHlo.after (hostOps0 (F := F)) W) (Proc.devRef .tc main_v16)
      = Cert.GcnSpec.dinv (Cert.GcnSpec.dsts (W (Proc.devRef .tc main_arg1))) := by
  rw [ops01_v16, ops0_v12, ops0_v15, ops0_cst3]
  rfl
theorem pre_v3 (W : Valuation τ sig (Elt F)) :
    StableHlo.after hostOps0_2 (StableHlo.after hostOps0_1 (StableHlo.after (hostOps0 (F := F)) W)) (Proc.devRef .tc main_v3)
      = Cert.GcnSpec.srcs (W (Proc.devRef .tc main_arg1)) := by
  rw [hostOps0_2_keep _ main_v3 (by decide), hostOps0_1_keep _ main_v3 (by decide), ops0_v3]
theorem pre_v6 (W : Valuation τ sig (Elt F)) :
    StableHlo.after hostOps0_2 (StableHlo.after hostOps0_1 (StableHlo.after (hostOps0 (F := F)) W)) (Proc.devRef .tc main_v6)
      = Cert.GcnSpec.dsts (W (Proc.devRef .tc main_arg1)) := by
  rw [hostOps0_2_keep _ main_v6 (by decide), hostOps0_1_keep _ main_v6 (by decide), ops0_v6]
/-- The edge weights. -/
theorem pre_v31 (W : Valuation τ sig (Elt F)) :
    StableHlo.after hostOps0_2 (StableHlo.after hostOps0_1 (StableHlo.after (hostOps0 (F := F)) W)) (Proc.devRef .tc main_v31)
      = Cert.GcnSpec.norm (Cert.GcnSpec.srcs (W (Proc.devRef .tc main_arg1))) (Cert.GcnSpec.dsts (W (Proc.devRef .tc main_arg1))) := by
  rw [ops02_v31, pre_v16, hostOps0_1_keep _ main_v3 (by decide), hostOps0_1_keep _ main_v6 (by decide), ops0_v3, ops0_v6]
  rfl
/-- The first bias as a row. -/
theorem pre_v32 (W : Valuation τ sig (Elt F)) :
    StableHlo.after hostOps0_2 (StableHlo.after hostOps0_1 (StableHlo.after (hostOps0 (F := F)) W)) (Proc.devRef .tc main_v32)
      = Cert.GcnSpec.asRow (W (Proc.devRef .tc main_arg3)) := by
  rw [ops02_v32, hostOps0_1_keep _ main_arg3 (by decide), hostOps0_keep _ main_arg3 (by decide)]
  exact asRow_eq _
/-- The second bias as a row. -/
theorem pre_v33 (W : Valuation τ sig (Elt F)) :
    StableHlo.after hostOps0_2 (StableHlo.after hostOps0_1 (StableHlo.after (hostOps0 (F := F)) W)) (Proc.devRef .tc main_v33)
      = Cert.GcnSpec.asRow (W (Proc.devRef .tc main_arg5)) := by
  rw [ops02_v33, hostOps0_1_keep _ main_arg5 (by decide), hostOps0_keep _ main_arg5 (by decide)]
  exact asRow_eq _
/-- A reference none of the three stretches writes keeps its contents. -/
theorem pre_keep (W : Valuation τ sig (Elt F)) (r : Ref sig .tc) (h0 : r ∉ hostOps0_W) (h1 : r ∉ hostOps0_1_W) (h2 : r ∉ hostOps0_2_W) :
    StableHlo.after hostOps0_2 (StableHlo.after hostOps0_1 (StableHlo.after (hostOps0 (F := F)) W)) (Proc.devRef .tc r)
      = W (Proc.devRef .tc r) := by
  rw [hostOps0_2_keep _ r h2, hostOps0_1_keep _ r h1, hostOps0_keep _ r h0]

/-! ## The run: what the buffers hold at each boundary, from the launch memory `m` -/

section Run

variable (m : (ℓ : Loc nD τ sig) → Buf (Elt F) ℓ) (ρ : Dev nD → PrngReg) (c : Dev nD)

/-! ### At the first region's entry -/

theorem at3_v3 : W3 m ρ c (Proc.devRef .tc main_v3) = Cert.GcnSpec.srcs (m ((c : Thread nD τ).loc main_arg1)) := pre_v3 (W0 m ρ c)
theorem at3_v6 : W3 m ρ c (Proc.devRef .tc main_v6) = Cert.GcnSpec.dsts (m ((c : Thread nD τ).loc main_arg1)) := pre_v6 (W0 m ρ c)
theorem at3_v31 : W3 m ρ c (Proc.devRef .tc main_v31) = Cert.GcnSpec.norm (Cert.GcnSpec.srcs (m ((c : Thread nD τ).loc main_arg1))) (Cert.GcnSpec.dsts (m ((c : Thread nD τ).loc main_arg1))) := pre_v31 (W0 m ρ c)
theorem at3_v32 : W3 m ρ c (Proc.devRef .tc main_v32) = Cert.GcnSpec.asRow (m ((c : Thread nD τ).loc main_arg3)) := pre_v32 (W0 m ρ c)
theorem at3_v33 : W3 m ρ c (Proc.devRef .tc main_v33) = Cert.GcnSpec.asRow (m ((c : Thread nD τ).loc main_arg5)) := pre_v33 (W0 m ρ c)
theorem at3_arg0 : W3 m ρ c (Proc.devRef .tc main_arg0) = (m ((c : Thread nD τ).loc main_arg0)) := pre_keep (W0 m ρ c) main_arg0 (by decide) (by decide) (by decide)
theorem at3_arg2 : W3 m ρ c (Proc.devRef .tc main_arg2) = (m ((c : Thread nD τ).loc main_arg2)) := pre_keep (W0 m ρ c) main_arg2 (by decide) (by decide) (by decide)
theorem at3_arg4 : W3 m ρ c (Proc.devRef .tc main_arg4) = (m ((c : Thread nD τ).loc main_arg4)) := pre_keep (W0 m ρ c) main_arg4 (by decide) (by decide) (by decide)

/-! ### At the first region's exit: everything but its result as entered -/

theorem at4_v3 : W4 m ρ c (Proc.devRef .tc main_v3) = Cert.GcnSpec.srcs (m ((c : Thread nD τ).loc main_arg1)) := (W4_of_ne m ρ c main_v3 (by decide)).trans (at3_v3 m ρ c)
theorem at4_v6 : W4 m ρ c (Proc.devRef .tc main_v6) = Cert.GcnSpec.dsts (m ((c : Thread nD τ).loc main_arg1)) := (W4_of_ne m ρ c main_v6 (by decide)).trans (at3_v6 m ρ c)
theorem at4_v31 : W4 m ρ c (Proc.devRef .tc main_v31) = Cert.GcnSpec.norm (Cert.GcnSpec.srcs (m ((c : Thread nD τ).loc main_arg1))) (Cert.GcnSpec.dsts (m ((c : Thread nD τ).loc main_arg1))) := (W4_of_ne m ρ c main_v31 (by decide)).trans (at3_v31 m ρ c)
theorem at4_v32 : W4 m ρ c (Proc.devRef .tc main_v32) = Cert.GcnSpec.asRow (m ((c : Thread nD τ).loc main_arg3)) := (W4_of_ne m ρ c main_v32 (by decide)).trans (at3_v32 m ρ c)
theorem at4_v33 : W4 m ρ c (Proc.devRef .tc main_v33) = Cert.GcnSpec.asRow (m ((c : Thread nD τ).loc main_arg5)) := (W4_of_ne m ρ c main_v33 (by decide)).trans (at3_v33 m ρ c)
theorem at4_arg4 : W4 m ρ c (Proc.devRef .tc main_arg4) = (m ((c : Thread nD τ).loc main_arg4)) := (W4_of_ne m ρ c main_arg4 (by decide)).trans (at3_arg4 m ρ c)
theorem at4_arg0 : W4 m ρ c (Proc.devRef .tc main_arg0) = (m ((c : Thread nD τ).loc main_arg0)) :=
  ((W4_arr m ρ c 0).trans (((dat0 (V3 m ρ) c).arrAt_in 0 rfl _).trans (A_eq0 (V3 m ρ) c 0))).trans (at3_arg0 m ρ c)

/-! ### After the first aggregation's stretch -/

theorem at5_v3 : W5 m ρ c (Proc.devRef .tc main_v3) = Cert.GcnSpec.srcs (m ((c : Thread nD τ).loc main_arg1)) := (hostOps1_keep (W4 m ρ c) main_v3 (by decide)).trans (at4_v3 m ρ c)
theorem at5_v6 : W5 m ρ c (Proc.devRef .tc main_v6) = Cert.GcnSpec.dsts (m ((c : Thread nD τ).loc main_arg1)) := (hostOps1_keep (W4 m ρ c) main_v6 (by decide)).trans (at4_v6 m ρ c)
theorem at5_v31 : W5 m ρ c (Proc.devRef .tc main_v31) = Cert.GcnSpec.norm (Cert.GcnSpec.srcs (m ((c : Thread nD τ).loc main_arg1))) (Cert.GcnSpec.dsts (m ((c : Thread nD τ).loc main_arg1))) := (hostOps1_keep (W4 m ρ c) main_v31 (by decide)).trans (at4_v31 m ρ c)
theorem at5_v32 : W5 m ρ c (Proc.devRef .tc main_v32) = Cert.GcnSpec.asRow (m ((c : Thread nD τ).loc main_arg3)) := (hostOps1_keep (W4 m ρ c) main_v32 (by decide)).trans (at4_v32 m ρ c)
theorem at5_v33 : W5 m ρ c (Proc.devRef .tc main_v33) = Cert.GcnSpec.asRow (m ((c : Thread nD τ).loc main_arg5)) := (hostOps1_keep (W4 m ρ c) main_v33 (by decide)).trans (at4_v33 m ρ c)
theorem at5_arg4 : W5 m ρ c (Proc.devRef .tc main_arg4) = (m ((c : Thread nD τ).loc main_arg4)) := (hostOps1_keep (W4 m ρ c) main_arg4 (by decide)).trans (at4_arg4 m ρ c)
theorem at5_arg0 : W5 m ρ c (Proc.devRef .tc main_arg0) = (m ((c : Thread nD τ).loc main_arg0)) := (hostOps1_keep (W4 m ρ c) main_arg0 (by decide)).trans (at4_arg0 m ρ c)

/-! ### At the second region's exit -/

theorem at6_v3 : W6 m ρ c (Proc.devRef .tc main_v3) = Cert.GcnSpec.srcs (m ((c : Thread nD τ).loc main_arg1)) := (W6_of_ne m ρ c main_v3 (by decide)).trans (at5_v3 m ρ c)
theorem at6_v6 : W6 m ρ c (Proc.devRef .tc main_v6) = Cert.GcnSpec.dsts (m ((c : Thread nD τ).loc main_arg1)) := (W6_of_ne m ρ c main_v6 (by decide)).trans (at5_v6 m ρ c)
theorem at6_v31 : W6 m ρ c (Proc.devRef .tc main_v31) = Cert.GcnSpec.norm (Cert.GcnSpec.srcs (m ((c : Thread nD τ).loc main_arg1))) (Cert.GcnSpec.dsts (m ((c : Thread nD τ).loc main_arg1))) := (W6_of_ne m ρ c main_v31 (by decide)).trans (at5_v31 m ρ c)
theorem at6_v33 : W6 m ρ c (Proc.devRef .tc main_v33) = Cert.GcnSpec.asRow (m ((c : Thread nD τ).loc main_arg5)) := (W6_of_ne m ρ c main_v33 (by decide)).trans (at5_v33 m ρ c)
theorem at6_arg0 : W6 m ρ c (Proc.devRef .tc main_arg0) = (m ((c : Thread nD τ).loc main_arg0)) := (W6_of_ne m ρ c main_arg0 (by decide)).trans (at5_arg0 m ρ c)

/-! ### After the second aggregation's stretch -/

theorem at7_v33 : W7 m ρ c (Proc.devRef .tc main_v33) = Cert.GcnSpec.asRow (m ((c : Thread nD τ).loc main_arg5)) := (hostOps2_keep (W6 m ρ c) main_v33 (by decide)).trans (at6_v33 m ρ c)
theorem at7_arg0 : W7 m ρ c (Proc.devRef .tc main_arg0) = (m ((c : Thread nD τ).loc main_arg0)) := (hostOps2_keep (W6 m ρ c) main_arg0 (by decide)).trans (at6_arg0 m ρ c)

end Run

/-! ## The three regions' results and the result buffer, given each region's tiles' value at any entry contents -/

/-- The first region leaves the product of the node table with the first weight matrix. -/
theorem at4_v34
    (h0 : ∀ (V : (c : Dev nD) → (b : Ref sig .tc) → Buf (Elt Ideal) ((c : Thread nD τ).loc b)) (c : Dev nD),
        (Gen.dat0 V c).arrAt 2 cfg0.N = Cert.GcnSpec.mm (V c main_arg0) (V c main_arg2))
    (m : (ℓ : Loc nD τ sig) → Buf (Elt Ideal) ℓ) (ρ : Dev nD → PrngReg) (c : Dev nD) :
    W4 m ρ c (Proc.devRef .tc main_v34) = Cert.GcnSpec.mm (m ((c : Thread nD τ).loc main_arg0)) (m ((c : Thread nD τ).loc main_arg2)) :=
  (W4_arr m ρ c 2).trans ((h0 (V3 m ρ) c).trans (by
    rw [show V3 m ρ c main_arg0 = _ from at3_arg0 m ρ c, show V3 m ρ c main_arg2 = _ from at3_arg2 m ρ c]))

/-- The first aggregation. -/
theorem at5_v47
    (h0 : ∀ (V : (c : Dev nD) → (b : Ref sig .tc) → Buf (Elt Ideal) ((c : Thread nD τ).loc b)) (c : Dev nD),
        (Gen.dat0 V c).arrAt 2 cfg0.N = Cert.GcnSpec.mm (V c main_arg0) (V c main_arg2))
    (m : (ℓ : Loc nD τ sig) → Buf (Elt Ideal) ℓ) (ρ : Dev nD → PrngReg) (c : Dev nD) :
    W5 m ρ c (Proc.devRef .tc main_v47) = Cert.GcnSpec.agg (m ((c : Thread nD τ).loc main_arg1)) (Cert.GcnSpec.mm (m ((c : Thread nD τ).loc main_arg0)) (m ((c : Thread nD τ).loc main_arg2))) :=
  (ops1_v47 (W4 m ρ c)).trans (by
    rw [at4_v3 m ρ c, at4_v6 m ρ c, at4_v31 m ρ c, at4_v34 h0 m ρ c]
    rfl)

/-- The second region leaves the second layer's dense half of the first aggregation. -/
theorem at6_v48
    (h0 : ∀ (V : (c : Dev nD) → (b : Ref sig .tc) → Buf (Elt Ideal) ((c : Thread nD τ).loc b)) (c : Dev nD),
        (Gen.dat0 V c).arrAt 2 cfg0.N = Cert.GcnSpec.mm (V c main_arg0) (V c main_arg2))
    (h1 : ∀ (V : (c : Dev nD) → (b : Ref sig .tc) → Buf (Elt Ideal) ((c : Thread nD τ).loc b)) (c : Dev nD),
        (Gen.dat1 V c).arrAt 3 cfg1.N = Cert.GcnSpec.layer2 (V c main_v47) (V c main_v32) (V c main_arg4))
    (m : (ℓ : Loc nD τ sig) → Buf (Elt Ideal) ℓ) (ρ : Dev nD → PrngReg) (c : Dev nD) :
    W6 m ρ c (Proc.devRef .tc main_v48) = Cert.GcnSpec.layer2 (Cert.GcnSpec.agg (m ((c : Thread nD τ).loc main_arg1)) (Cert.GcnSpec.mm (m ((c : Thread nD τ).loc main_arg0)) (m ((c : Thread nD τ).loc main_arg2)))) (Cert.GcnSpec.asRow (m ((c : Thread nD τ).loc main_arg3))) (m ((c : Thread nD τ).loc main_arg4)) :=
  (W6_arr m ρ c 3).trans ((h1 (V5 m ρ) c).trans (by
    rw [show V5 m ρ c main_v47 = _ from at5_v47 h0 m ρ c, show V5 m ρ c main_v32 = _ from at5_v32 m ρ c,
      show V5 m ρ c main_arg4 = _ from at5_arg4 m ρ c]))

/-- The second aggregation. -/
theorem at7_v61
    (h0 : ∀ (V : (c : Dev nD) → (b : Ref sig .tc) → Buf (Elt Ideal) ((c : Thread nD τ).loc b)) (c : Dev nD),
        (Gen.dat0 V c).arrAt 2 cfg0.N = Cert.GcnSpec.mm (V c main_arg0) (V c main_arg2))
    (h1 : ∀ (V : (c : Dev nD) → (b : Ref sig .tc) → Buf (Elt Ideal) ((c : Thread nD τ).loc b)) (c : Dev nD),
        (Gen.dat1 V c).arrAt 3 cfg1.N = Cert.GcnSpec.layer2 (V c main_v47) (V c main_v32) (V c main_arg4))
    (m : (ℓ : Loc nD τ sig) → Buf (Elt Ideal) ℓ) (ρ : Dev nD → PrngReg) (c : Dev nD) :
    W7 m ρ c (Proc.devRef .tc main_v61) = Cert.GcnSpec.agg (m ((c : Thread nD τ).loc main_arg1)) (Cert.GcnSpec.layer2 (Cert.GcnSpec.agg (m ((c : Thread nD τ).loc main_arg1)) (Cert.GcnSpec.mm (m ((c : Thread nD τ).loc main_arg0)) (m ((c : Thread nD τ).loc main_arg2)))) (Cert.GcnSpec.asRow (m ((c : Thread nD τ).loc main_arg3))) (m ((c : Thread nD τ).loc main_arg4))) :=
  (ops2_v61 (W6 m ρ c)).trans (by
    rw [at6_v3 m ρ c, at6_v6 m ρ c, at6_v31 m ρ c, at6_v48 h0 h1 m ρ c]
    rfl)

/-- The result buffer at the end of the run holds the model's value at the six launch arrays. -/
theorem value
    (h0 : ∀ (V : (c : Dev nD) → (b : Ref sig .tc) → Buf (Elt Ideal) ((c : Thread nD τ).loc b)) (c : Dev nD),
        (Gen.dat0 V c).arrAt 2 cfg0.N = Cert.GcnSpec.mm (V c main_arg0) (V c main_arg2))
    (h1 : ∀ (V : (c : Dev nD) → (b : Ref sig .tc) → Buf (Elt Ideal) ((c : Thread nD τ).loc b)) (c : Dev nD),
        (Gen.dat1 V c).arrAt 3 cfg1.N = Cert.GcnSpec.layer2 (V c main_v47) (V c main_v32) (V c main_arg4))
    (h2 : ∀ (V : (c : Dev nD) → (b : Ref sig .tc) → Buf (Elt Ideal) ((c : Thread nD τ).loc b)) (c : Dev nD),
        (Gen.dat2 V c).arrAt 3 cfg2.N = Cert.GcnSpec.close (V c main_v61) (V c main_v33) (V c main_arg0))
    (m : (ℓ : Loc nD τ sig) → Buf (Elt Ideal) ℓ) (ρ : Dev nD → PrngReg) (c : Dev nD) :
    Gen.W8 m ρ c (Proc.devRef .tc main_v62)
      = Cert.GcnSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W8_arr m ρ c 3).trans ((h2 (V7 m ρ) c).trans (by
    rw [show V7 m ρ c main_v61 = _ from at7_v61 h0 h1 m ρ c, show V7 m ρ c main_v33 = _ from at7_v33 m ρ c,
      show V7 m ρ c main_arg0 = _ from at7_arg0 m ρ c]
    rfl))

end Cert.GcnKernel

end
-- ==== Proof.KRun.lean ====
/-
  The kernel's run with its result named.

  From any memory with zero counters, every weakly fair execution of the kernel program on the TensorCores
  terminates, nothing faulting; in every final state the result buffer `main_v62` holds the contents of the last
  boundary of the run (`W8`, the fold of the host stretches and the three tiled regions from the launch memory) at
  that buffer, and the six argument arrays are as launched.  The final thread state holds every unscoped buffer at
  `W8`; the result buffer is one of them.
-/
import proofs.«142221_j5153960755351_2_alg».proof.Proof.Gen.KernelIdeal.Frame

set_option maxRecDepth 16384

noncomputable section

namespace Cert.GcnKernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- Every weakly fair execution of the kernel program terminates with the result buffer `main_v62` at the last
    boundary's contents `W8` and each argument array unchanged. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v62) = Cert.KernelIdeal.Gen.W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.GcnKernel

end
-- ==== Proof.RefRun.lean ====
/-
  The reference program's run, with its result named by the model.

  The reference is a straight line of 123 host operations.  The contents of the device's buffers after the line are
  the fold of the operations' results over the launch contents, and the fold over two lines in a row is the fold
  over the second applied to the fold over the first (`after_append`).  The line is read in five stretches, each
  from an ARBITRARY valuation `W`:

    A  operations 0–2    the self loops `0 … 99999`, and row 0 of the edge table as a flat list;
    B  operation 3       the sources: the two laid end to end;
    C  operations 4–5    row 1 of the edge table as a flat list;
    D  operation 6       the destinations: row 1 and the self loops laid end to end;
    E  operations 7–122  the two graph-convolution layers, over the sources and the destinations.

  The two joining operations stand each alone, so their operands are `W` at two buffers and the joined list is the
  function `cat` of two plain arguments; a buffer that a stretch does not write keeps its contents.  Stretch E is
  the model's own operations one for one: the degree, its inverse square root, the edge weights (computed twice
  by the program, once per layer: both are `norm`), a gather, a product, a scatter-add per layer, the two matrix
  products, the biases, the maximum with zero and the residual.  Composing the five readings gives the model
  `Cert.GcnSpec.out` of the six arguments.
-/
import proofs.«142221_j5153960755351_2_alg».proof.Proof.RefOps
import proofs.«142221_j5153960755351_2_alg».proof.Proof.Spec
import Idealize.ShloMosaic.Lib.StableHlo.Run

noncomputable section

namespace Cert.GcnRef

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The fold over two lines in a row: the second line's fold, from the first line's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A list of 1600000 endpoints and one of 100000 laid end to end. -/
def cat (a : (⟨S1600000, .i32⟩ : BufTy).Contents (Elt F)) (b : (⟨S100000, .i32⟩ : BufTy).Contents (Elt F)) :
    (⟨S1700000, .i32⟩ : BufTy).Contents (Elt F) :=
  concatenate S1700000 0 [⟨S1600000, a⟩, ⟨S100000, b⟩] concatenates_S1600000_S100000_S1700000_d0

/-! ## The five stretches -/

/-- Operations 0–2. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000 ]

/-- Operation 3: the sources. -/
abbrev opsB : List (HloOp τ sig (Elt F)) :=
  [ binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- Operations 4–5. -/
abbrev opsC : List (HloOp τ sig (Elt F)) :=
  [ unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000 ]

/-- Operation 6: the destinations. -/
abbrev opsD : List (HloOp τ sig (Elt F)) :=
  [ binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- Operations 7–122: the two layers. -/
abbrev opsE : List (HloOp τ sig (Elt F)) :=
  [ binary main_arg0 main_arg2 main_v7 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v16) (TRef.of (T := ⟨S100000, .f32⟩) main_call0_v1) (TRef.of (T := ⟨S100000, .f32⟩) main_v17) select,
    nullary main_c (constantI S_ 32 0#32),
    unary main_c main_v18 (broadcastInDim S1700000 ![] bcast_S_S1700000 : (⟨S_, .i32⟩ : BufTy).Contents (Elt F) → (⟨S1700000, .i32⟩ : BufTy).Contents (Elt F)),
    binary main_v3 main_v18 main_v19 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v20 (broadcastInDim S1700000 ![] bcast_S_S1700000 : (⟨S_, .i32⟩ : BufTy).Contents (Elt F) → (⟨S1700000, .i32⟩ : BufTy).Contents (Elt F)),
    binary main_v3 main_v20 main_v21 (addi : (⟨S1700000, .i32⟩ : BufTy).Contents (Elt F) → (⟨S1700000, .i32⟩ : BufTy).Contents (Elt F) → (⟨S1700000, .i32⟩ : BufTy).Contents (Elt F)),
    ternary main_v19 main_v21 main_v3 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v22 main_v23 (broadcastInDim S1700000x1 ![0] bcast_S1700000_S1700000x1_0 : (⟨S1700000, .i32⟩ : BufTy).Contents (Elt F) → (⟨S1700000x1, .i32⟩ : BufTy).Contents (Elt F)),
    binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v27 (broadcastInDim S1700000 ![] bcast_S_S1700000 : (⟨S_, .i32⟩ : BufTy).Contents (Elt F) → (⟨S1700000, .i32⟩ : BufTy).Contents (Elt F)),
    binary main_v6 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v6 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v17 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v31 main_v32 (mulf : (⟨S1700000, .f32⟩ : BufTy).Contents (Elt F) → (⟨S1700000, .f32⟩ : BufTy).Contents (Elt F) → (⟨S1700000, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v7 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v32 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf,
    binary main_v49 main_arg4 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_10 (constant S_ .f32 0x3F800000#32),
    unary main_cst_10 main_v51 (broadcastInDim S1700000 ![] bcast_S_S1700000 : (⟨S_, .f32⟩ : BufTy).Contents (Elt F) → (⟨S1700000, .f32⟩ : BufTy).Contents (Elt F)),
    nullary main_cst_11 (constant S_ .f32 0x00000000#32),
    unary main_cst_11 main_v52 (broadcastInDim S100000 ![] bcast_S_S100000 : (⟨S_, .f32⟩ : BufTy).Contents (Elt F) → (⟨S100000, .f32⟩ : BufTy).Contents (Elt F)),
    unary main_v6 main_v53 (broadcastInDim S1700000x1 ![0] bcast_S1700000_S1700000x1_0 : (⟨S1700000, .i32⟩ : BufTy).Contents (Elt F) → (⟨S1700000x1, .i32⟩ : BufTy).Contents (Elt F)),
    ternary main_v52 main_v53 main_v51 main_v54 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_12 (constant S_ .f32 0x00000000#32),
    unary main_cst_12 main_v55 (broadcastInDim S100000 ![] bcast_S_S100000 : (⟨S_, .f32⟩ : BufTy).Contents (Elt F) → (⟨S100000, .f32⟩ : BufTy).Contents (Elt F)),
    binary main_v54 main_v55 main_v56 (cmpf .ogt : (⟨S100000, .f32⟩ : BufTy).Contents (Elt F) → (⟨S100000, .f32⟩ : BufTy).Contents (Elt F) → (⟨S100000, .i1⟩ : BufTy).Contents (Elt F)),
    nullary main_cst_13 (constant S_ .f32 0x3F800000#32),
    unary main_cst_13 main_v57 (broadcastInDim S100000 ![] bcast_S_S100000 : (⟨S_, .f32⟩ : BufTy).Contents (Elt F) → (⟨S100000, .f32⟩ : BufTy).Contents (Elt F)),
    binary main_v54 main_v57 main_v58 (maximumf : (⟨S100000, .f32⟩ : BufTy).Contents (Elt F) → (⟨S100000, .f32⟩ : BufTy).Contents (Elt F) → (⟨S100000, .f32⟩ : BufTy).Contents (Elt F)),
    unary main_v58 main_v59 (Host.rsqrt : (⟨S100000, .f32⟩ : BufTy).Contents (Elt F) → (⟨S100000, .f32⟩ : BufTy).Contents (Elt F)),
    nullary main_cst_14 (constant S_ .f32 0x00000000#32),
    TRef.unary (TRef.of (T := ⟨S_, .f32⟩) main_cst_14) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v56) (TRef.of (T := ⟨S100000, .f32⟩) main_v59) (TRef.of (T := ⟨S100000, .f32⟩) main_call2_v1) (TRef.of (T := ⟨S100000, .f32⟩) main_v60) select,
    nullary main_c_15 (constantI S_ 32 0#32),
    unary main_c_15 main_v61 (broadcastInDim S1700000 ![] bcast_S_S1700000 : (⟨S_, .i32⟩ : BufTy).Contents (Elt F) → (⟨S1700000, .i32⟩ : BufTy).Contents (Elt F)),
    binary main_v3 main_v61 main_v62 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v63 (broadcastInDim S1700000 ![] bcast_S_S1700000 : (⟨S_, .i32⟩ : BufTy).Contents (Elt F) → (⟨S1700000, .i32⟩ : BufTy).Contents (Elt F)),
    binary main_v3 main_v63 main_v64 (addi : (⟨S1700000, .i32⟩ : BufTy).Contents (Elt F) → (⟨S1700000, .i32⟩ : BufTy).Contents (Elt F) → (⟨S1700000, .i32⟩ : BufTy).Contents (Elt F)),
    ternary main_v62 main_v64 main_v3 main_v65 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v65 main_v66 (broadcastInDim S1700000x1 ![0] bcast_S1700000_S1700000x1_0 : (⟨S1700000, .i32⟩ : BufTy).Contents (Elt F) → (⟨S1700000x1, .i32⟩ : BufTy).Contents (Elt F)),
    binary main_v60 main_v66 main_v67 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_17 (constantI S_ 32 0#32),
    unary main_c_17 main_v68 (broadcastInDim S1700000 ![] bcast_S_S1700000 : (⟨S_, .i32⟩ : BufTy).Contents (Elt F) → (⟨S1700000, .i32⟩ : BufTy).Contents (Elt F)),
    binary main_v6 main_v68 main_v69 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v70 (broadcastInDim S1700000 ![] bcast_S_S1700000 : (⟨S_, .i32⟩ : BufTy).Contents (Elt F) → (⟨S1700000, .i32⟩ : BufTy).Contents (Elt F)),
    binary main_v6 main_v70 main_v71 (addi : (⟨S1700000, .i32⟩ : BufTy).Contents (Elt F) → (⟨S1700000, .i32⟩ : BufTy).Contents (Elt F) → (⟨S1700000, .i32⟩ : BufTy).Contents (Elt F)),
    ternary main_v69 main_v71 main_v6 main_v72 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v72 main_v73 (broadcastInDim S1700000x1 ![0] bcast_S1700000_S1700000x1_0 : (⟨S1700000, .i32⟩ : BufTy).Contents (Elt F) → (⟨S1700000x1, .i32⟩ : BufTy).Contents (Elt F)),
    binary main_v60 main_v73 main_v74 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v67 main_v74 main_v75 (mulf : (⟨S1700000, .f32⟩ : BufTy).Contents (Elt F) → (⟨S1700000, .f32⟩ : BufTy).Contents (Elt F) → (⟨S1700000, .f32⟩ : BufTy).Contents (Elt F)),
    nullary main_c_19 (constantI S_ 32 0#32),
    unary main_c_19 main_v76 (broadcastInDim S1700000 ![] bcast_S_S1700000 : (⟨S_, .i32⟩ : BufTy).Contents (Elt F) → (⟨S1700000, .i32⟩ : BufTy).Contents (Elt F)),
    binary main_v3 main_v76 main_v77 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v78 (broadcastInDim S1700000 ![] bcast_S_S1700000 : (⟨S_, .i32⟩ : BufTy).Contents (Elt F) → (⟨S1700000, .i32⟩ : BufTy).Contents (Elt F)),
    binary main_v3 main_v78 main_v79 (addi : (⟨S1700000, .i32⟩ : BufTy).Contents (Elt F) → (⟨S1700000, .i32⟩ : BufTy).Contents (Elt F) → (⟨S1700000, .i32⟩ : BufTy).Contents (Elt F)),
    ternary main_v77 main_v79 main_v3 main_v80 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v80 main_v81 (broadcastInDim S1700000x1 ![0] bcast_S1700000_S1700000x1_0 : (⟨S1700000, .i32⟩ : BufTy).Contents (Elt F) → (⟨S1700000x1, .i32⟩ : BufTy).Contents (Elt F)),
    binary main_v50 main_v81 main_v82 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v75 main_v83 (broadcastInDim S1700000x1 ![0] bcast_S1700000_S1700000x1_0 : (⟨S1700000, .f32⟩ : BufTy).Contents (Elt F) → (⟨S1700000x1, .f32⟩ : BufTy).Contents (Elt F)),
    unary main_v83 main_v84 (broadcastInDim S1700000x64 ![0, 1] bcast_S1700000x1_S1700000x64_0_1 : (⟨S1700000x1, .f32⟩ : BufTy).Contents (Elt F) → (⟨S1700000x64, .f32⟩ : BufTy).Contents (Elt F)),
    binary main_v82 main_v84 main_v85 (mulf : (⟨S1700000x64, .f32⟩ : BufTy).Contents (Elt F) → (⟨S1700000x64, .f32⟩ : BufTy).Contents (Elt F) → (⟨S1700000x64, .f32⟩ : BufTy).Contents (Elt F)),
    nullary main_cst_21 (constant S_ .f32 0x00000000#32),
    unary main_cst_21 main_v86 (broadcastInDim S100000x64 ![] bcast_S_S100000x64 : (⟨S_, .f32⟩ : BufTy).Contents (Elt F) → (⟨S100000x64, .f32⟩ : BufTy).Contents (Elt F)),
    unary main_v6 main_v87 (broadcastInDim S1700000x1 ![0] bcast_S1700000_S1700000x1_0 : (⟨S1700000, .i32⟩ : BufTy).Contents (Elt F) → (⟨S1700000x1, .i32⟩ : BufTy).Contents (Elt F)),
    ternary main_v86 main_v87 main_v85 main_v88 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v89 (broadcastInDim S1x64 ![1] bcast_S64_S1x64_1 : (⟨S64, .f32⟩ : BufTy).Contents (Elt F) → (⟨S1x64, .f32⟩ : BufTy).Contents (Elt F)),
    unary main_v89 main_v90 (broadcastInDim S100000x64 ![0, 1] bcast_S1x64_S100000x64_0_1 : (⟨S1x64, .f32⟩ : BufTy).Contents (Elt F) → (⟨S100000x64, .f32⟩ : BufTy).Contents (Elt F)),
    binary main_v88 main_v90 main_v91 (addf : (⟨S100000x64, .f32⟩ : BufTy).Contents (Elt F) → (⟨S100000x64, .f32⟩ : BufTy).Contents (Elt F) → (⟨S100000x64, .f32⟩ : BufTy).Contents (Elt F)),
    binary main_v91 main_arg0 main_v92 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
/-- The line is the five stretches in a row. -/
theorem ops_split : (ops : List (HloOp τ sig (Elt F))) = opsA ++ (opsB ++ (opsC ++ (opsD ++ opsE))) := rfl

/-! ## Stretch A -/

theorem A_v0 (W : Valuation τ sig (Elt F)) : after opsA W (Proc.devRef .tc main_v0) = iotaInDim S100000 32 0 := by
  after_results_simp
theorem A_v2 (W : Valuation τ sig (Elt F)) :
    after opsA W (Proc.devRef .tc main_v2)
      = shapeCast _ (extractStridedSlice S1x1600000 ![0, 0] (W (Proc.devRef .tc main_arg1)) slices_S2x1600000_S1x1600000_0_0) shapeCasts_S1x1600000_S1600000 := by
  after_results_simp <;> rfl
theorem A_arg0 (W : Valuation τ sig (Elt F)) : after opsA W (Proc.devRef .tc main_arg0) = W (Proc.devRef .tc main_arg0) := by
  after_results_simp
theorem A_arg1 (W : Valuation τ sig (Elt F)) : after opsA W (Proc.devRef .tc main_arg1) = W (Proc.devRef .tc main_arg1) := by
  after_results_simp
theorem A_arg2 (W : Valuation τ sig (Elt F)) : after opsA W (Proc.devRef .tc main_arg2) = W (Proc.devRef .tc main_arg2) := by
  after_results_simp
theorem A_arg3 (W : Valuation τ sig (Elt F)) : after opsA W (Proc.devRef .tc main_arg3) = W (Proc.devRef .tc main_arg3) := by
  after_results_simp
theorem A_arg4 (W : Valuation τ sig (Elt F)) : after opsA W (Proc.devRef .tc main_arg4) = W (Proc.devRef .tc main_arg4) := by
  after_results_simp
theorem A_arg5 (W : Valuation τ sig (Elt F)) : after opsA W (Proc.devRef .tc main_arg5) = W (Proc.devRef .tc main_arg5) := by
  after_results_simp

/-! ## Stretch B -/

theorem B_v3 (W : Valuation τ sig (Elt F)) :
    after opsB W (Proc.devRef .tc main_v3) = cat (W (Proc.devRef .tc main_v2)) (W (Proc.devRef .tc main_v0)) := by
  after_results_simp <;> rfl
theorem B_v0 (W : Valuation τ sig (Elt F)) : after opsB W (Proc.devRef .tc main_v0) = W (Proc.devRef .tc main_v0) := by
  after_results_simp
theorem B_arg0 (W : Valuation τ sig (Elt F)) : after opsB W (Proc.devRef .tc main_arg0) = W (Proc.devRef .tc main_arg0) := by
  after_results_simp
theorem B_arg1 (W : Valuation τ sig (Elt F)) : after opsB W (Proc.devRef .tc main_arg1) = W (Proc.devRef .tc main_arg1) := by
  after_results_simp
theorem B_arg2 (W : Valuation τ sig (Elt F)) : after opsB W (Proc.devRef .tc main_arg2) = W (Proc.devRef .tc main_arg2) := by
  after_results_simp
theorem B_arg3 (W : Valuation τ sig (Elt F)) : after opsB W (Proc.devRef .tc main_arg3) = W (Proc.devRef .tc main_arg3) := by
  after_results_simp
theorem B_arg4 (W : Valuation τ sig (Elt F)) : after opsB W (Proc.devRef .tc main_arg4) = W (Proc.devRef .tc main_arg4) := by
  after_results_simp
theorem B_arg5 (W : Valuation τ sig (Elt F)) : after opsB W (Proc.devRef .tc main_arg5) = W (Proc.devRef .tc main_arg5) := by
  after_results_simp

/-! ## Stretch C -/

theorem C_v5 (W : Valuation τ sig (Elt F)) :
    after opsC W (Proc.devRef .tc main_v5)
      = shapeCast _ (extractStridedSlice S1x1600000 ![1, 0] (W (Proc.devRef .tc main_arg1)) slices_S2x1600000_S1x1600000_1_0) shapeCasts_S1x1600000_S1600000 := by
  after_results_simp <;> rfl
theorem C_v0 (W : Valuation τ sig (Elt F)) : after opsC W (Proc.devRef .tc main_v0) = W (Proc.devRef .tc main_v0) := by
  after_results_simp
theorem C_v3 (W : Valuation τ sig (Elt F)) : after opsC W (Proc.devRef .tc main_v3) = W (Proc.devRef .tc main_v3) := by
  after_results_simp
theorem C_arg0 (W : Valuation τ sig (Elt F)) : after opsC W (Proc.devRef .tc main_arg0) = W (Proc.devRef .tc main_arg0) := by
  after_results_simp
theorem C_arg2 (W : Valuation τ sig (Elt F)) : after opsC W (Proc.devRef .tc main_arg2) = W (Proc.devRef .tc main_arg2) := by
  after_results_simp
theorem C_arg3 (W : Valuation τ sig (Elt F)) : after opsC W (Proc.devRef .tc main_arg3) = W (Proc.devRef .tc main_arg3) := by
  after_results_simp
theorem C_arg4 (W : Valuation τ sig (Elt F)) : after opsC W (Proc.devRef .tc main_arg4) = W (Proc.devRef .tc main_arg4) := by
  after_results_simp
theorem C_arg5 (W : Valuation τ sig (Elt F)) : after opsC W (Proc.devRef .tc main_arg5) = W (Proc.devRef .tc main_arg5) := by
  after_results_simp

/-! ## Stretch D -/

theorem D_v6 (W : Valuation τ sig (Elt F)) :
    after opsD W (Proc.devRef .tc main_v6) = cat (W (Proc.devRef .tc main_v5)) (W (Proc.devRef .tc main_v0)) := by
  after_results_simp <;> rfl
theorem D_v3 (W : Valuation τ sig (Elt F)) : after opsD W (Proc.devRef .tc main_v3) = W (Proc.devRef .tc main_v3) := by
  after_results_simp
theorem D_arg0 (W : Valuation τ sig (Elt F)) : after opsD W (Proc.devRef .tc main_arg0) = W (Proc.devRef .tc main_arg0) := by
  after_results_simp
theorem D_arg2 (W : Valuation τ sig (Elt F)) : after opsD W (Proc.devRef .tc main_arg2) = W (Proc.devRef .tc main_arg2) := by
  after_results_simp
theorem D_arg3 (W : Valuation τ sig (Elt F)) : after opsD W (Proc.devRef .tc main_arg3) = W (Proc.devRef .tc main_arg3) := by
  after_results_simp
theorem D_arg4 (W : Valuation τ sig (Elt F)) : after opsD W (Proc.devRef .tc main_arg4) = W (Proc.devRef .tc main_arg4) := by
  after_results_simp
theorem D_arg5 (W : Valuation τ sig (Elt F)) : after opsD W (Proc.devRef .tc main_arg5) = W (Proc.devRef .tc main_arg5) := by
  after_results_simp

/-! ## Stretch E -/

set_option maxRecDepth 8192 in
set_option maxHeartbeats 49200000 in
/-- The two layers, from the sources `W main_v3` and the destinations `W main_v6`. -/
theorem E_v92 (W : Valuation τ sig (Elt F)) :
    after opsE W (Proc.devRef .tc main_v92)
      = Cert.GcnSpec.close (Cert.GcnSpec.aggW (W (Proc.devRef .tc main_v3)) (W (Proc.devRef .tc main_v6)) (Cert.GcnSpec.norm (W (Proc.devRef .tc main_v3)) (W (Proc.devRef .tc main_v6)))
          (Cert.GcnSpec.layer2 (Cert.GcnSpec.aggW (W (Proc.devRef .tc main_v3)) (W (Proc.devRef .tc main_v6)) (Cert.GcnSpec.norm (W (Proc.devRef .tc main_v3)) (W (Proc.devRef .tc main_v6)))
              (Cert.GcnSpec.mm (W (Proc.devRef .tc main_arg0)) (W (Proc.devRef .tc main_arg2))))
            (Cert.GcnSpec.asRow (W (Proc.devRef .tc main_arg3))) (W (Proc.devRef .tc main_arg4))))
        (Cert.GcnSpec.asRow (W (Proc.devRef .tc main_arg5))) (W (Proc.devRef .tc main_arg0)) := by
  after_results_simp <;> rfl

/-! ## The five readings composed -/

/-- Row 0 of the edge table and the self loops, end to end: the model's sources. -/
theorem cat_srcs (e : (⟨S2x1600000, .i32⟩ : BufTy).Contents (Elt F)) :
    cat (shapeCast _ (extractStridedSlice S1x1600000 ![0, 0] e slices_S2x1600000_S1x1600000_0_0) shapeCasts_S1x1600000_S1600000)
        (iotaInDim S100000 32 0)
      = Cert.GcnSpec.srcs e := rfl

/-- Row 1 of the edge table and the self loops, end to end: the model's destinations. -/
theorem cat_dsts (e : (⟨S2x1600000, .i32⟩ : BufTy).Contents (Elt F)) :
    cat (shapeCast _ (extractStridedSlice S1x1600000 ![1, 0] e slices_S2x1600000_S1x1600000_1_0) shapeCasts_S1x1600000_S1600000)
        (iotaInDim S100000 32 0)
      = Cert.GcnSpec.dsts e := rfl

set_option maxHeartbeats 1000000 in
/-- From any valuation `V`, the line leaves the result buffer at the model of `V`'s six argument arrays: stretch E's
    reading, its sources and destinations walked back through D, C, B and A (each buffer through the stretches that
    do not write it), the arguments through all four. -/
theorem value_of (V : Valuation τ sig (Elt F)) :
    after ops V (Proc.devRef .tc main_v92)
      = Cert.GcnSpec.out (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  rw [ops_split, after_append, after_append, after_append, after_append, E_v92,
    D_v3, D_v6, D_arg0, D_arg2, D_arg3, D_arg4, D_arg5,
    C_v3, C_v5, C_v0, C_arg0, C_arg2, C_arg3, C_arg4, C_arg5,
    B_v3, B_v0, B_arg0, B_arg1, B_arg2, B_arg3, B_arg4, B_arg5,
    A_v2, A_v0, A_arg0, A_arg1, A_arg2, A_arg3, A_arg4, A_arg5,
    cat_srcs, cat_dsts]
  rfl

/-- The line from a device's launch contents. -/
theorem value (m : (ℓ : Loc nD τ sig) → Buf (Elt F) ℓ) (c : Dev nD) :
    after ops (launchContents m c) (Proc.devRef .tc main_v92)
      = Cert.GcnSpec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  value_of (launchContents m c)

/-! ## The run -/

set_option maxRecDepth 8192 in
set_option maxHeartbeats 49200000 in
/-- On every device, for any float values, from any memory with zero counters: every weakly fair execution of the
    reference terminates with the result buffer at the model of the six argument arrays as launched, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v92)
          = Cert.GcnSpec.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v92).trans (value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.GcnRef

end
-- ==== Proof.lean ====
/-
  The certificate of a two-layer graph convolution: the tiled kernel against its jnp reference, at the ideal values.

  Both programs compute `Cert.GcnSpec.out` (Proof/Spec.lean):
      agg (mm (relu (agg (mm x W1) + rowb b1)) W2) + rowb b2 + x,
  where `agg` gathers each extended edge's source row, scales it by the symmetric weight `dinv[src] · dinv[dst]` and
  scatter-adds it into the destination row, and `mm` is the product with a 64 × 64 weight matrix.

  The reference is one straight line of host operations; its run is read off them (Proof/RefRun.lean).
  The kernel does the same host operations around three tiled regions, each over ten blocks of 10000 rows:
  `mm x W1` (Proof/Tile0.lean), `mm (relu (a + row b1)) W2` (Proof/Tile1.lean) and `a + row b2 + x` (Proof/Tile2.lean).
  At the ideal values a block of a matrix product is the product of the block — both are the exact sum over the 64
  contracted columns of exact products (Proof/Dots.lean) — and the bias and maximum act entry by entry
  (Proof/Rows.lean), so each region leaves in its output array the host expression of its input arrays; the host
  operations between the regions are the reference's own, so the two results are one term of the arguments
  (Proof/KHost.lean).  No law of the extended reals beyond this reading is used, and the precondition is not opened.
  The three frames are the generated frames (the reference's: its run with the result dropped); nothing was rewritten
  by the idealization, so `preserves` is trivial.
-/
import proofs.«142221_j5153960755351_2_alg».proof.Defs
import proofs.«142221_j5153960755351_2_alg».proof.Proof.Gen.Kernel
import proofs.«142221_j5153960755351_2_alg».proof.Proof.Gen.Kernel.Skeleton
import proofs.«142221_j5153960755351_2_alg».proof.Proof.Gen.Kernel.Launch
import proofs.«142221_j5153960755351_2_alg».proof.Proof.Gen.Kernel.Points
import proofs.«142221_j5153960755351_2_alg».proof.Proof.Gen.Kernel.Frame
import proofs.«142221_j5153960755351_2_alg».proof.Proof.Gen.KernelIdeal
import proofs.«142221_j5153960755351_2_alg».proof.Proof.Gen.KernelIdeal.Skeleton
import proofs.«142221_j5153960755351_2_alg».proof.Proof.Gen.KernelIdeal.Launch
import proofs.«142221_j5153960755351_2_alg».proof.Proof.Gen.KernelIdeal.Points
import proofs.«142221_j5153960755351_2_alg».proof.Proof.Gen.KernelIdeal.Frame
import proofs.«142221_j5153960755351_2_alg».proof.Proof.Gen.ReferenceIdeal
import proofs.«142221_j5153960755351_2_alg».proof.Proof.Gen.Pre_finite_inputs
import proofs.«142221_j5153960755351_2_alg».proof.Proof.Tile0
import proofs.«142221_j5153960755351_2_alg».proof.Proof.Tile1
import proofs.«142221_j5153960755351_2_alg».proof.Proof.Tile2
import proofs.«142221_j5153960755351_2_alg».proof.Proof.KHost
import proofs.«142221_j5153960755351_2_alg».proof.Proof.KRun
import proofs.«142221_j5153960755351_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.GcnRef.run (F := Ideal) m ρ)

/-- The idealization rewrote no operation. -/
theorem preserves : Cert.preserves_Kernel_KernelIdeal := trivial

/-- From memories agreeing on the six arguments both programs end with `Cert.GcnSpec.out` of them in the result. -/
theorem algebraic : Cert.algebraic_KernelIdeal_ReferenceIdeal := by
  intro m ρ m' ρ' _ hagree
  refine ⟨_, (θ_run Cert.KernelIdeal.defs _ _).mono (fun r h c => ⟨(h c).1.trans
      (Cert.GcnKernel.value (fun V c => Cert.GcnTile0.value V c) (fun V c => Cert.GcnTile1.value V c) (fun V c => Cert.GcnTile2.value V c) m ρ c), (h c).2⟩)
      (Cert.GcnKernel.run_named (F := Ideal) m ρ), ?_⟩
  refine (θ_run Cert.ReferenceIdeal.defs _ _).mono (fun _ h c => ⟨(h c).1.trans ?_, (h c).2⟩)
    (Cert.GcnRef.run (F := Ideal) m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
